-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x768 : Shape := ⟨3, ![16, 512, 768]⟩
abbrev S16x512 : Shape := ⟨2, ![16, 512]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel

variable [Facts]

def fn {F : FTy → Type} [FloatOps F] (main_arg0 : FVec F S16x512x768 .f32) (main_arg1 : IVec S16x512 32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  main_v3
-- ==== Kernel.lean ====
abbrev S16x512x768 : Shape := ⟨3, ![16, 512, 768]⟩
abbrev S16x512 : Shape := ⟨2, ![16, 512]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S2x1x1 : Shape := ⟨3, ![2, 1, 1]⟩
abbrev S4096x768 : Shape := ⟨2, ![4096, 768]⟩
abbrev S2048x768 : Shape := ⟨2, ![2048, 768]⟩
abbrev S4096x1 : Shape := ⟨2, ![4096, 1]⟩
abbrev S1x2048 : Shape := ⟨2, ![1, 2048]⟩
abbrev S1x1x1 : Shape := ⟨3, ![1, 1, 1]⟩
abbrev S4096x2048 : Shape := ⟨2, ![4096, 2048]⟩
abbrev S1x4096x2048 : Shape := ⟨3, ![1, 4096, 2048]⟩
abbrev S1 : Shape := ⟨1, ![1]⟩

abbrev nBuf : Space → Nat
  | .hbm => 45
  | .vmem => 14
  | .smem => 0
  | _ => 0

abbrev bufTy : (tb : Table) → Fin (tcTables nBuf tb) → BufTy
  | .hbm, ⟨0, _⟩ => ⟨S16x512x768, .f32⟩
  | .hbm, ⟨1, _⟩ => ⟨S16x512, .i32⟩
  | .hbm, ⟨2, _⟩ => ⟨S8192x768, .f32⟩
  | .hbm, ⟨3, _⟩ => ⟨S8192, .i32⟩
  | .hbm, ⟨4, _⟩ => ⟨S8192x768, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x768, .f32⟩
  | .hbm, ⟨13, _⟩ => ⟨S8192x768, .f32⟩
  | .hbm, ⟨14, _⟩ => ⟨S8192x768, .bf16⟩
  | .hbm, ⟨15, _⟩ => ⟨S8192x1, .i32⟩
  | .hbm, ⟨16, _⟩ => ⟨S1x8192, .i32⟩
  | .hbm, ⟨17, _⟩ => ⟨S2x1x1, .f32⟩
  | .hbm, ⟨18, _⟩ => ⟨S2x1x1, .f32⟩
  | .hbm, ⟨19, _⟩ => ⟨S2x1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S4096x768, .bf16⟩
  | .local _ .vmem, ⟨1, _⟩ => ⟨S4096x768, .bf16⟩
  | .local _ .vmem, ⟨2, _⟩ => ⟨S2048x768, .bf16⟩
  | .local _ .vmem, ⟨3, _⟩ => ⟨S2048x768, .bf16⟩
  | .local _ .vmem, ⟨4, _⟩ => ⟨S4096x1, .i32⟩
  | .local _ .vmem, ⟨5, _⟩ => ⟨S4096x1, .i32⟩
  | .local _ .vmem, ⟨6, _⟩ => ⟨S1x2048, .i32⟩
  | .local _ .vmem, ⟨7, _⟩ => ⟨S1x2048, .i32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | _, _ => ⟨S16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S16x512x768_S8192x768 : S16x512x768.ShapeCasts S8192x768
  shapeCasts_S16x512_S8192 : S16x512.ShapeCasts S8192
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  shapeCasts_S8192_S8192x1 : S8192.ShapeCasts S8192x1
  shapeCasts_S8192_S1x8192 : S8192.ShapeCasts S1x8192
  inb_S1x1x1_S1x1x1_0_0_0 : ∀ a, (![0, 0, 0] : Fin 3 → Nat) a + S1x1x1.size a ≤ S1x1x1.size a
  h_S1x1x1 : 0 < S1x1x1.numel
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S4096x1_S4096x2048 : S4096x1.Broadcasts S4096x2048
  broadcasts_S1x2048_S4096x2048 : S1x2048.Broadcasts S4096x2048
  natLt_1_32 : 1 < 32
  shapeCasts_S1x1x1_S1x1x1 : S1x1x1.ShapeCasts S1x1x1
  shapeCasts_S4096x2048_S1x4096x2048 : S4096x2048.ShapeCasts S1x4096x2048
  reduces_S1x4096x2048_S1 : S1x4096x2048.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  dot_S4096x768_S2048x768_S4096x2048_1_1_0_0_n_n_wf : DotDims.WF S4096x768 S2048x768 S4096x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S8192x768.size a
  hwx0_0 : ∀ i : grid0.Coords, EltTy.bits .bf16 = 32 ∨ (Rect.block (s := S8192x768) S4096x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S8192x768.size a
  hwx0_1 : ∀ i : grid0.Coords, EltTy.bits .bf16 = 32 ∨ (Rect.block (s := S8192x768) S2048x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S8192x1.size a
  hwx0_2 : ∀ i : grid0.Coords, EltTy.bits .i32 = 32 ∨ (Rect.block (s := S8192x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S4096x768_S2048x768_S4096x2048_1_1_0_0_n_n : DotDims S4096x768 S2048x768 S4096x2048 where
  lhsContracting := [1]
  rhsContracting := [1]
  lhsNonContracting := [0]
  rhsNonContracting := [0]
  lhsBatch := []
  rhsBatch := []
  wf := dot_S4096x768_S2048x768_S4096x2048_1_1_0_0_n_n_wf

abbrev win0_0 : Pipeline.Window sig grid0 :=
  Pipeline.Window.ofSpec (Memref.whole main_v7) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x512x768 : Shape := ⟨3, ![16, 512, 768]⟩
abbrev S16x512 : Shape := ⟨2, ![16, 512]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S768x8192 : Shape := ⟨2, ![768, 8192]⟩
abbrev S8192x8192 : Shape := ⟨2, ![8192, 8192]⟩
abbrev S1x8192 : Shape := ⟨2, ![1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S16x512, .i32⟩
  | .hbm, ⟨2, _⟩ => ⟨S8192x768, .f32⟩
  | .hbm, ⟨3, _⟩ => ⟨S8192, .i32⟩
  | .hbm, ⟨4, _⟩ => ⟨S8192x768, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x768, .f32⟩
  | .hbm, ⟨13, _⟩ => ⟨S8192x768, .f32⟩
  | .hbm, ⟨14, _⟩ => ⟨S768x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  shapeCasts_S16x512x768_S8192x768 : S16x512x768.ShapeCasts S8192x768
  shapeCasts_S16x512_S8192 : S16x512.ShapeCasts S8192
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  transposes_S8192x768_S768x8192_1_0 : S8192x768.Transposes [1, 0] S768x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S_d0_1 : S8192x8192.ReducesTo [0, 1] S_
  dot_S8192x768_S768x8192_S8192x8192_1_0_0_1_n_n_wf : DotDims.WF S8192x768 S768x8192 S8192x8192 [1] [0] [0] [1] [] []

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.FrameBase.lean ====
/-
  What the runs of the kernel body and the launch share.

  The program is three stretches of host operations (two reshapes; the row norms; the
  clamp, the division, the change of format and two reshapes of the labels), one kernel
  region over a grid of 2 x 4 points, and a last stretch of host operations on the region's
  three results. This module names the contents of every buffer when the region is entered,
  the block of each windowed array a grid point works on, and the one condition the body
  branches on: the second grid coordinate being zero, which holds at the points 0 and 4.
-/
import proofs.«157627_j59528246722684_2_alg».proof.Proof.Gen.KernelIdeal.Launch
import proofs.«157627_j59528246722684_2_alg».proof.Proof.Gen.KernelIdeal.Skeleton
import proofs.«157627_j59528246722684_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers when the region is entered -/

/-- Core `c`'s buffers as launched, -/
abbrev V₀ (c : Dev nD) : Valuation τ sig (Elt F) := fun b => m ((c : Dev nD), b)
/-- after the two reshapes, -/
abbrev Va (c : Dev nD) : Valuation τ sig (Elt F) := StableHlo.after hostOps0 (V₀ m c)
/-- after the row norms, -/
abbrev Vb (c : Dev nD) : Valuation τ sig (Elt F) := StableHlo.after hostOps0_1 (Va m c)
/-- and when the region is entered. -/
abbrev V₁ (c : Dev nD) : Valuation τ sig (Elt F) := StableHlo.after hostOps0_2 (Vb m c)
/-- The same, read at a TensorCore reference. -/
abbrev V (c : Dev nD) (b : Ref sig .tc) : Buf (Elt F) ((c : Thread nD τ).loc b) := V₁ m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    index has not moved since the last fetch — for any proof data whose array is the region-entry contents and
    whose body leaves the block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional: the second grid coordinate is zero. -/
abbrev cond0 (i : grid0.Coords) : Prop := (Scalar.cmpi .ne (Scalar.extui (Scalar.cmpi .eq (BitVec.ofNat 32 (i 1).val) 0#32)) 0#32) = 1#1
/-- It holds at the first point of each row of the grid. -/
theorem hcond0 : ∀ t : Fin cfg0.N, cond0 (grid0.coords t) ↔ t.val % 4 = 0 :=
  (by decide +kernel : ∀ t : Fin grid0.N, cond0 (grid0.coords t) ↔ t.val % 4 = 0)

/-! ## The staging memrefs at a point -/

/-- One staging buffer of each output window, through which its contents are stated. -/
abbrev VO4 : View sig .tc .vmem S1x1x1 .f32 := (Memref.whole cc0_stg4_0 : Memref sig .tc .vmem S1x1x1 .f32).view
abbrev VO5 : View sig .tc .vmem S1x1x1 .f32 := (Memref.whole cc0_stg5_0 : Memref sig .tc .vmem S1x1x1 .f32).view
abbrev VO6 : View sig .tc .vmem S1x1x1 .f32 := (Memref.whole cc0_stg6_0 : Memref sig .tc .vmem S1x1x1 .f32).view
/-- Each window's current staging memref at point `t`, as the pipeline passes it to the body, and its wholeness. -/
abbrev ms0 (t : Fin cfg0.N) : Memref sig .tc .vmem S4096x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)

end Cert.KernelIdeal.Hand

end
-- ==== Proof.FrameRunA.lean ====
/-
  The kernel body run once at a point whose second grid coordinate is zero: the three
  accumulators are first overwritten with zeros, then each receives its tile's total added
  to what it then holds. What each accumulator's buffer ends with is recorded as the list of
  the body's stores into it, last first.
-/
import proofs.«157627_j59528246722684_2_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- The stores the body makes into each accumulator's staging buffer when the branch is taken, with the proof that
    from whole staging buffers — the four inputs' at their contents, the accumulators' at anything — the body runs
    to the end, the inputs' buffers as they were and each accumulator's with those stores written. -/
noncomputable def kernelRunA (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) :
    Σ' (L4 : List (View.Piece (Elt F) S1x1x1 .f32)), Σ' (L5 : List (View.Piece (Elt F) S1x1x1 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__supcon_reduce_kernel i arg2 harg2 arg3 harg3 arg4 harg4 arg5 harg5 arg6 harg6 arg7 harg7 arg8 harg8) K } := by
  refine ⟨?_, ?_, ?_, fun E K => ?run⟩
  case run =>
    simp only [cc0__supcon_reduce_kernel_eq_skeleton]; unfold cc0__supcon_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Hand

end
-- ==== Proof.FrameRunB.lean ====
/-
  The kernel body run once at a point whose second grid coordinate is not zero: nothing is
  reset, and each accumulator receives its tile's total added to what the point before left
  in it. What each accumulator's buffer ends with is recorded as the list of the body's
  stores into it, last first.
-/
import proofs.«157627_j59528246722684_2_alg».proof.Proof.FrameRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- The stores the body makes into each accumulator's staging buffer when the branch is not taken, with the proof
    that from whole staging buffers — the four inputs' at their contents, the accumulators' at their running
    contents — the body runs to the end, the inputs' buffers as they were and each accumulator's with those
    stores written. -/
noncomputable def kernelRunB (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) :
    Σ' (L4 : List (View.Piece (Elt F) S1x1x1 .f32)), Σ' (L5 : List (View.Piece (Elt F) S1x1x1 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__supcon_reduce_kernel i arg2 harg2 arg3 harg3 arg4 harg4 arg5 harg5 arg6 harg6 arg7 harg7 arg8 harg8) K } := by
  refine ⟨?_, ?_, ?_, fun E K => ?run⟩
  case run =>
    simp only [cc0__supcon_reduce_kernel_eq_skeleton]; unfold cc0__supcon_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Hand

end
-- ==== Proof.FrameData.lean ====
/-
  What the three accumulators hold point by point, the proof data of the pipeline, and the
  body's obligation at every grid point.

  The grid's points are numbered 0..7 in row-major order, four to a row. At the first point
  of a row the accumulators are reset and receive the first tile's totals; at each later point
  of the row they receive that tile's totals on top of what the point before left. An
  accumulator's block is written back to its array after the last point of its row only, so
  between the points of one row its staging buffer is untouched.
-/
import proofs.«157627_j59528246722684_2_alg».proof.Proof.FrameRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The stores of this case into accumulator 0 cover its one-element block. -/
theorem coverA4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) (y : S1x1x1.Idx) :
    ∃ pc ∈ (kernelRunA c i arg2 harg2 arg3 harg3 arg4 harg4 arg5 harg5 arg6 harg6 arg7 harg7 arg8 harg8 hc0 x0 x1 x2 x3).1, y ∈ pc.1.set :=
  View.cover_of_tiledL (kernelRunA c i arg2 harg2 arg3 harg3 arg4 harg4 arg5 harg5 arg6 harg6 arg7 harg7 arg8 harg8 hc0 x0 x1 x2 x3).1 S1x1x1.size (by sl_kernel_rfl) y

/-- What this case leaves in accumulator 0's staging buffer: its stores read back. -/
def outA4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) : Vec F S1x1x1 .f32 :=
  VO4.read (Elt F) (VO4.writes (Elt F) VO4.junk (kernelRunA c i arg2 harg2 arg3 harg3 arg4 harg4 arg5 harg5 arg6 harg6 arg7 harg7 arg8 harg8 hc0 x0 x1 x2 x3).1)

/-- The stores of this case into accumulator 1 cover its one-element block. -/
theorem coverA5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) (y : S1x1x1.Idx) :
    ∃ pc ∈ (kernelRunA c i arg2 harg2 arg3 harg3 arg4 harg4 arg5 harg5 arg6 harg6 arg7 harg7 arg8 harg8 hc0 x0 x1 x2 x3).2.1, y ∈ pc.1.set :=
  View.cover_of_tiledL (kernelRunA c i arg2 harg2 arg3 harg3 arg4 harg4 arg5 harg5 arg6 harg6 arg7 harg7 arg8 harg8 hc0 x0 x1 x2 x3).2.1 S1x1x1.size (by sl_kernel_rfl) y

/-- What this case leaves in accumulator 1's staging buffer: its stores read back. -/
def outA5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) : Vec F S1x1x1 .f32 :=
  VO5.read (Elt F) (VO5.writes (Elt F) VO5.junk (kernelRunA c i arg2 harg2 arg3 harg3 arg4 harg4 arg5 harg5 arg6 harg6 arg7 harg7 arg8 harg8 hc0 x0 x1 x2 x3).2.1)

/-- The stores of this case into accumulator 2 cover its one-element block. -/
theorem coverA6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) (y : S1x1x1.Idx) :
    ∃ pc ∈ (kernelRunA c i arg2 harg2 arg3 harg3 arg4 harg4 arg5 harg5 arg6 harg6 arg7 harg7 arg8 harg8 hc0 x0 x1 x2 x3).2.2.1, y ∈ pc.1.set :=
  View.cover_of_tiledL (kernelRunA c i arg2 harg2 arg3 harg3 arg4 harg4 arg5 harg5 arg6 harg6 arg7 harg7 arg8 harg8 hc0 x0 x1 x2 x3).2.2.1 S1x1x1.size (by sl_kernel_rfl) y

/-- What this case leaves in accumulator 2's staging buffer: its stores read back. -/
def outA6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) : Vec F S1x1x1 .f32 :=
  VO6.read (Elt F) (VO6.writes (Elt F) VO6.junk (kernelRunA c i arg2 harg2 arg3 harg3 arg4 harg4 arg5 harg5 arg6 harg6 arg7 harg7 arg8 harg8 hc0 x0 x1 x2 x3).2.2.1)

/-- The stores of this case into accumulator 0 cover its one-element block. -/
theorem coverB4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) (y : S1x1x1.Idx) :
    ∃ pc ∈ (kernelRunB c i arg2 harg2 arg3 harg3 arg4 harg4 arg5 harg5 arg6 harg6 arg7 harg7 arg8 harg8 hc0 x0 x1 x2 x3 xo4 xo5 xo6).1, y ∈ pc.1.set :=
  View.cover_of_tiledL (kernelRunB c i arg2 harg2 arg3 harg3 arg4 harg4 arg5 harg5 arg6 harg6 arg7 harg7 arg8 harg8 hc0 x0 x1 x2 x3 xo4 xo5 xo6).1 S1x1x1.size (by sl_kernel_rfl) y

/-- What this case leaves in accumulator 0's staging buffer: its stores read back. -/
def outB4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) : Vec F S1x1x1 .f32 :=
  VO4.read (Elt F) (VO4.writes (Elt F) VO4.junk (kernelRunB c i arg2 harg2 arg3 harg3 arg4 harg4 arg5 harg5 arg6 harg6 arg7 harg7 arg8 harg8 hc0 x0 x1 x2 x3 xo4 xo5 xo6).1)

/-- The stores of this case into accumulator 1 cover its one-element block. -/
theorem coverB5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) (y : S1x1x1.Idx) :
    ∃ pc ∈ (kernelRunB c i arg2 harg2 arg3 harg3 arg4 harg4 arg5 harg5 arg6 harg6 arg7 harg7 arg8 harg8 hc0 x0 x1 x2 x3 xo4 xo5 xo6).2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.1 S1x1x1.size (by sl_kernel_rfl) y

/-- What this case leaves in accumulator 1's staging buffer: its stores read back. -/
def outB5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) : Vec F S1x1x1 .f32 :=
  VO5.read (Elt F) (VO5.writes (Elt F) VO5.junk (kernelRunB c i arg2 harg2 arg3 harg3 arg4 harg4 arg5 harg5 arg6 harg6 arg7 harg7 arg8 harg8 hc0 x0 x1 x2 x3 xo4 xo5 xo6).2.1)

/-- The stores of this case into accumulator 2 cover its one-element block. -/
theorem coverB6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) (y : S1x1x1.Idx) :
    ∃ pc ∈ (kernelRunB c i arg2 harg2 arg3 harg3 arg4 harg4 arg5 harg5 arg6 harg6 arg7 harg7 arg8 harg8 hc0 x0 x1 x2 x3 xo4 xo5 xo6).2.2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.2.1 S1x1x1.size (by sl_kernel_rfl) y

/-- What this case leaves in accumulator 2's staging buffer: its stores read back. -/
def outB6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) : Vec F S1x1x1 .f32 :=
  VO6.read (Elt F) (VO6.writes (Elt F) VO6.junk (kernelRunB c i arg2 harg2 arg3 harg3 arg4 harg4 arg5 harg5 arg6 harg6 arg7 harg7 arg8 harg8 hc0 x0 x1 x2 x3 xo4 xo5 xo6).2.2.1)

/-! ## What the accumulators hold after each point -/

/-- The three accumulators after a point that resets them. -/
def outsA (c : Dev nD) (t : Fin cfg0.N) (h0 : t.val % 4 = 0) : Vec F S1x1x1 .f32 × Vec F S1x1x1 .f32 × Vec F S1x1x1 .f32 :=
  (outA4 c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t),
   outA5 c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t),
   outA6 c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t))

/-- The three accumulators after a point that adds to what they held (`p`). -/
def outsB (c : Dev nD) (t : Fin cfg0.N) (h0 : ¬t.val % 4 = 0) (p : Vec F S1x1x1 .f32 × Vec F S1x1x1 .f32 × Vec F S1x1x1 .f32) :
    Vec F S1x1x1 .f32 × Vec F S1x1x1 .f32 × Vec F S1x1x1 .f32 :=
  (outB4 c (grid0.coords t) (ms0 t) (hs0 t) (ms1 t) (hs1 t) (ms2 t) (hs2 t) (ms3 t) (hs3 t) (ms4 t) (hs4 t) (ms5 t) (hs5 t) (ms6 t) (hs6 t) (fun h => h0 ((hcond0 t).mp h)) (iblk m c 0 t) (iblk m c 1 t) (iblk m c 2 t) (iblk m c 3 t) p.1 p.2.1 p.2.2,
   outB5 c (grid0.coords t) (ms0 t) (hs0 t) (ms1 t) (hs1 t) (ms2 t) (hs2 t) (ms3 t) (hs3 t) (ms4 t) (hs4 t) (ms5 t) (hs5 t) (ms6 t) (hs6 t) (fun h => h0 ((hcond0 t).mp h)) (iblk m c 0 t) (iblk m c 1 t) (iblk m c 2 t) (iblk m c 3 t) p.1 p.2.1 p.2.2,
   outB6 c (grid0.coords t) (ms0 t) (hs0 t) (ms1 t) (hs1 t) (ms2 t) (hs2 t) (ms3 t) (hs3 t) (ms4 t) (hs4 t) (ms5 t) (hs5 t) (ms6 t) (hs6 t) (fun h => h0 ((hcond0 t).mp h)) (iblk m c 0 t) (iblk m c 1 t) (iblk m c 2 t) (iblk m c 3 t) p.1 p.2.1 p.2.2)

/-- The accumulation: what the three staging buffers hold after the body at position `n`. -/
def outsAt (c : Dev nD) : (n : ℕ) → n < cfg0.N → Vec F S1x1x1 .f32 × Vec F S1x1x1 .f32 × Vec F S1x1x1 .f32
  | 0, hn => outsA m c ⟨0, hn⟩ (Nat.zero_mod _)
  | n + 1, hn =>
    if h0 : (n + 1) % 4 = 0 then outsA m c ⟨n + 1, hn⟩ h0
    else outsB m c ⟨n + 1, hn⟩ h0 (outsAt c n (Nat.lt_of_succ_lt hn))

/-- At a point that resets: that case's contents. -/
theorem outsAt_A (c : Dev nD) (t : Fin cfg0.N) (h0 : t.val % 4 = 0) : outsAt m c t.val t.isLt = outsA m c t h0 := by
  obtain ⟨n, hn⟩ := t
  cases n with
  | zero => exact rfl
  | succ n => exact (dif_pos h0).trans rfl

/-- At a point that adds: that case's contents, over what the point before left. -/
theorem outsAt_B (c : Dev nD) (t : Fin cfg0.N) (h0 : ¬t.val % 4 = 0) :
    outsAt m c t.val t.isLt = outsB m c t h0 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the accumulators' at `outsAt`; the invariant the scoped buffers no
    window stages (there is none); nothing owed; the matrix, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

/-- Each input's current staging buffer holds its block at every point. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- At a point that adds, an accumulator's current staging buffer holds what the body left at the point before: the
    point is not the first, and the buffer was not written back between (write-backs follow the last point of a row). -/
theorem before4_B (c : Dev nD) (t : Fin cfg0.N) (h0 : ¬t.val % 4 = 0) (d) :
    (dats m 0 c).before 4 t d = (outsAt m c (t.val - 1) (Nat.lt_of_le_of_lt (Nat.sub_le _ _) t.isLt)).1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
theorem before5_B (c : Dev nD) (t : Fin cfg0.N) (h0 : ¬t.val % 4 = 0) (d) :
    (dats m 0 c).before 5 t d = (outsAt m c (t.val - 1) (Nat.lt_of_le_of_lt (Nat.sub_le _ _) t.isLt)).2.1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]
theorem before6_B (c : Dev nD) (t : Fin cfg0.N) (h0 : ¬t.val % 4 = 0) (d) :
    (dats m 0 c).before 6 t d = (outsAt m c (t.val - 1) (Nat.lt_of_le_of_lt (Nat.sub_le _ _) t.isLt)).2.2 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the point is a reset or an addition according to
    its position in its row, and at an addition the accumulators hold what the point before left; so the matching
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 4 = 0
  · rw [outsAt_A m c t h0]
    unfold outsA outA4 outA5 outA6
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcond0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c _ _ _ _ _ _ _ _ _ _ _ _ _ _ _ _ _ _ _ _)
    isplitl [H5]
    · unfold owns; iexists _; isplitr
      swap; · iexact H5
      ipureintro; exact View.read_writes_of_cover _ _ _ _ _ (coverA5 c _ _ _ _ _ _ _ _ _ _ _ _ _ _ _ _ _ _ _ _)
    unfold owns; iexists _; isplitr
    swap; · iexact H6
    ipureintro; exact View.read_writes_of_cover _ _ _ _ _ (coverA6 c _ _ _ _ _ _ _ _ _ _ _ _ _ _ _ _ _ _ _ _)
  · rw [outsAt_B m c t h0]
    simp only [before4_B m c t h0, before5_B m c t h0, before6_B m c t h0]
    unfold outsB outB4 outB5 outB6
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (fun h => h0 ((hcond0 t).mp h)) (iblk m c 0 t) (iblk m c 1 t) (iblk m c 2 t) (iblk m c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 c _ _ _ _ _ _ _ _ _ _ _ _ _ _ _ _ _ _ _ _ _ _ _)
    isplitl [H5]
    · unfold owns; iexists _; isplitr
      swap; · iexact H5
      ipureintro; exact View.read_writes_of_cover _ _ _ _ _ (coverB5 c _ _ _ _ _ _ _ _ _ _ _ _ _ _ _ _ _ _ _ _ _ _ _)
    unfold owns; iexists _; isplitr
    swap; · iexact H6
    ipureintro; exact View.read_writes_of_cover _ _ _ _ _ (coverB6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameLaunch.lean ====
/-
  The launch: the program as five segments — three stretches of host operations, the
  kernel region, a last stretch of host operations — composed in order, each entered from what
  the one before left.

  Between two segments the core holds every unscoped buffer whole at a known valuation. The
  region takes, out of those, the six buffers its windows stage (the normalized matrix, which
  TWO windows read and which is therefore split into two half shares at entry and rejoined at
  exit; the two label arrays; the three results) and gives them back with the three results at
  what the pipeline's write-backs left. Everything else passes by untouched, so the two argument
  arrays end as launched.
-/
import proofs.«157627_j59528246722684_2_alg».proof.Proof.FrameData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg unscopedRest arrBufs arrRef)

variable {F : FTy → Type} [FloatOps F] [Named F]

local notation "𝕄" => MT nD τ sig Unit (Elt F) ℕ (UR sig nD τ) ℕ

variable (m : (ℓ : Loc nD τ sig) → Buf (Elt F) ℓ)

variable (ρ : Dev nD → PrngReg)

/-! ## What the host stretches write -/

theorem hostOps0_fresh : (hostOps0 : List (HloOp τ sig (Elt F))).Forall fun op => op.fresh = ∅ := by
  simp only [List.Forall]; repeat' constructor
/-- The references the stretch writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

theorem hostOps0_1_fresh : (hostOps0_1 : List (HloOp τ sig (Elt F))).Forall fun op => op.fresh = ∅ := by
  simp only [List.Forall]; repeat' constructor
/-- The references the stretch writes. -/
abbrev hostOps0_1_W : List (Ref sig .tc) := [main_call0_v0, main_call0_cst, main_call0_v1, main_call0_v2, main_v2]
theorem hostOps0_1_writes : (hostOps0_1 : List (HloOp τ sig (Elt F))).Forall fun op => op.writes ⊆ (hostOps0_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

theorem hostOps0_2_fresh : (hostOps0_2 : List (HloOp τ sig (Elt F))).Forall fun op => op.fresh = ∅ := by
  simp only [List.Forall]; repeat' constructor
/-- The references the stretch writes. -/
abbrev hostOps0_2_W : List (Ref sig .tc) := [main_cst, main_v3, main_v4, main_v5, main_v6, main_v7, main_v8, main_v9]
theorem hostOps0_2_writes : (hostOps0_2 : List (HloOp τ sig (Elt F))).Forall fun op => op.writes ⊆ (hostOps0_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

theorem hostOps1_fresh : (hostOps1 : List (HloOp τ sig (Elt F))).Forall fun op => op.fresh = ∅ := by
  simp only [List.Forall]; repeat' constructor
/-- The references the stretch writes. -/
abbrev hostOps1_W : List (Ref sig .tc) := [main_cst_0, main_v11, main_cst_1, main_v12, main_cst_2, main_v13, main_cst_3, main_cst_4, main_v14, main_v15, main_v16, main_v17, main_v18, main_v19, main_cst_5, main_v20, main_v21, main_v22, main_v23, main_v24, main_v25, main_v26, main_v27, main_v28, main_v29]
theorem hostOps1_writes : (hostOps1 : List (HloOp τ sig (Elt F))).Forall fun op => op.writes ⊆ (hostOps1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-! ## The buffers after the region and at the end -/

/-- What the region leaves in its three results: what the pipeline's write-backs make of them. -/
abbrev o0 (c : Dev nD) : Buf (Elt F) ((c : Thread nD τ).loc main_v10_0) := (dats m 0 c).arrAt 4 cfg0.N
abbrev o1 (c : Dev nD) : Buf (Elt F) ((c : Thread nD τ).loc main_v10_1) := (dats m 0 c).arrAt 5 cfg0.N
abbrev o2 (c : Dev nD) : Buf (Elt F) ((c : Thread nD τ).loc main_v10_2) := (dats m 0 c).arrAt 6 cfg0.N

/-- Core `c`'s buffers after the region: the three results changed, nothing else. -/
abbrev V₂ (c : Dev nD) : Valuation τ sig (Elt F) :=
  Function.update (Function.update (Function.update (V₁ m c) main_v10_0 (o0 m c)) main_v10_1 (o1 m c)) main_v10_2 (o2 m c)
/-- Core `c`'s buffers at the end. -/
abbrev V₃ (c : Dev nD) : Valuation τ sig (Elt F) := StableHlo.after hostOps1 (V₂ m c)

/-- A buffer that is none of the three results is not changed by the region. -/
theorem V₂_of (c : Dev nD) (r : Ref sig .tc) (h : r ∉ ([main_v10_0, main_v10_1, main_v10_2] : List (Ref sig .tc))) : V₂ m c r = V₁ m c r := by
  have h0 : r ≠ main_v10_0 := fun e => h (by rw [e]; decide)
  have h1 : r ≠ main_v10_1 := fun e => h (by rw [e]; decide)
  have h2 : r ≠ main_v10_2 := fun e => h (by rw [e]; decide)
  simp only [V₂, Function.update_of_ne (StableHlo.devRef_ne_of_ne h2 : (Proc.devRef .tc r : DevRef τ sig) ≠ Proc.devRef .tc main_v10_2),
    Function.update_of_ne (StableHlo.devRef_ne_of_ne h1 : (Proc.devRef .tc r : DevRef τ sig) ≠ Proc.devRef .tc main_v10_1),
    Function.update_of_ne (StableHlo.devRef_ne_of_ne h0 : (Proc.devRef .tc r : DevRef τ sig) ≠ Proc.devRef .tc main_v10_0)]

/-- The first argument reaches the end as launched: no host stretch writes it and the region does not change it. -/
theorem V₃_arg0 (c : Dev nD) : V₃ m c main_arg0 = m ((c : Thread nD τ).loc main_arg0) :=
  (StableHlo.after_of_writes_sub hostOps1 _ hostOps1_writes (by decide)).trans <| (V₂_of m c main_arg0 (by decide)).trans <|
    (StableHlo.after_of_writes_sub hostOps0_2 _ hostOps0_2_writes (by decide)).trans <|
    (StableHlo.after_of_writes_sub hostOps0_1 _ hostOps0_1_writes (by decide)).trans <|
    (StableHlo.after_of_writes_sub hostOps0 _ hostOps0_writes (by decide)).trans rfl
/-- So does the second. -/
theorem V₃_arg1 (c : Dev nD) : V₃ m c main_arg1 = m ((c : Thread nD τ).loc main_arg1) :=
  (StableHlo.after_of_writes_sub hostOps1 _ hostOps1_writes (by decide)).trans <| (V₂_of m c main_arg1 (by decide)).trans <|
    (StableHlo.after_of_writes_sub hostOps0_2 _ hostOps0_2_writes (by decide)).trans <|
    (StableHlo.after_of_writes_sub hostOps0_1 _ hostOps0_1_writes (by decide)).trans <|
    (StableHlo.after_of_writes_sub hostOps0 _ hostOps0_writes (by decide)).trans rfl

/-! ## The region's six buffers -/

/-- The buffers behind the seven windows' arrays are six: two windows read the normalized matrix. -/
theorem arr_image : (Finset.univ.image (arrRef spec0) : Finset (Ref sig .tc))
    = ([main_v7, main_v8, main_v9, main_v10_0, main_v10_1, main_v10_2] : List (Ref sig .tc)).toFinset := by decide

/-- Those six, one by one. -/
theorem arrBufs_eq (c : Dev nD) (W : (b : Ref sig .tc) → Buf (Elt F) ((c.tc : Thread nD τ).loc b)) :
    (arrBufs spec0 c W : sProp 𝕄)
      = iprop((((c.tc : Thread nD τ).loc main_v7) ↦{fullShare} W main_v7) ∗ (((c.tc : Thread nD τ).loc main_v8) ↦{fullShare} W main_v8) ∗ (((c.tc : Thread nD τ).loc main_v9) ↦{fullShare} W main_v9)
          ∗ (((c.tc : Thread nD τ).loc main_v10_0) ↦{fullShare} W main_v10_0) ∗ (((c.tc : Thread nD τ).loc main_v10_1) ↦{fullShare} W main_v10_1) ∗ (((c.tc : Thread nD τ).loc main_v10_2) ↦{fullShare} W main_v10_2)) := by
  unfold arrBufs
  rw [bigSep_eq_bigSepL_of_eq _ arr_image (by decide)]
  rfl

/-- The pipeline's arrays, one by one: the matrix held half by each of its two windows. -/
theorem arrays_eq7 (c : Dev nD) (G : (w : Fin cfg0.W) → Buf (Elt F) ((cfg0.win w).arr.view.loc (c.tc : Thread nD τ))) :
    ((dats m 0 c).arrays G : sProp 𝕄)
      = iprop((((c.tc : Thread nD τ).loc main_v7) ↦{fullShare.left} G 0) ∗ (((c.tc : Thread nD τ).loc main_v7) ↦{fullShare.right} G 1) ∗ (((c.tc : Thread nD τ).loc main_v8) ↦{fullShare} G 2) ∗ (((c.tc : Thread nD τ).loc main_v9) ↦{fullShare} G 3)
          ∗ (((c.tc : Thread nD τ).loc main_v10_0) ↦{fullShare} G 4) ∗ (((c.tc : Thread nD τ).loc main_v10_1) ↦{fullShare} G 5) ∗ (((c.tc : Thread nD τ).loc main_v10_2) ↦{fullShare} G 6)) := by
  unfold Dat.arrays
  have h : ∀ w : Fin cfg0.W, (((cfg0.win w).arr.view.loc (c.tc : Thread nD τ)) ↦[(cfg0.win w).arr.view.set]{(dats m 0 c).share w} G w : sProp 𝕄)
      = (((c.tc : Thread nD τ).loc (arrRef spec0 w)) ↦{(dats m 0 c).share w} G w) := fun w => by rw [(arr_whole0 w).set_eq_univ]
  rw [bigSep_congr (fun w _ => h w), bigSep_W0]
  rfl

/-- ENTRY: the six buffers at the region-entry contents are the pipeline's arrays at their entry contents, the matrix
    split between its two windows. -/
theorem arrays_in (c : Dev nD) : (arrBufs spec0 c (V m c) : sProp 𝕄) ⊢ (dats m 0 c).arrays ((dats m 0 c).arrAt · 0) := by
  rw [arrBufs_eq, arrays_eq7]
  iintro ⟨H7, H8, H9, Ha, Hb, Hc⟩
  ihave H77 := (pointsTo_share (PosShare.mem_left_op_right fullShare)).1 $$ [H7]
  · iexact H7
  icases H77 with ⟨H7l, H7r⟩
  isplitl [H7l]; · iexact H7l
  isplitl [H7r]; · iexact H7r
  isplitl [H8]; · iexact H8
  isplitl [H9]; · iexact H9
  isplitl [Ha]; · iexact Ha
  isplitl [Hb]; · iexact Hb
  iexact Hc

/-- EXIT: the pipeline's arrays at their final contents are the six buffers at the valuation after the region: the
    inputs as they were (an input array is never written), the matrix's halves rejoined, the results at what the
    write-backs left. -/
theorem arrays_out (c : Dev nD) : ((dats m 0 c).arrays ((dats m 0 c).arrAt · cfg0.N) : sProp 𝕄) ⊢ arrBufs spec0 c (fun b => V₂ m c b) := by
  rw [arrBufs_eq, arrays_eq7,
    (dats m 0 c).arrAt_in 0 rfl, (dats m 0 c).arrAt_in 1 rfl, (dats m 0 c).arrAt_in 2 rfl, (dats m 0 c).arrAt_in 3 rfl,
    V₂_of m c main_v7 (by decide), V₂_of m c main_v8 (by decide), V₂_of m c main_v9 (by decide)]
  have e0 : V₂ m c main_v10_0 = o0 m c := by
    simp only [V₂, Function.update_of_ne (StableHlo.devRef_ne_of_ne (by decide : main_v10_0 ≠ main_v10_2) : (Proc.devRef .tc main_v10_0 : DevRef τ sig) ≠ Proc.devRef .tc main_v10_2),
      Function.update_of_ne (StableHlo.devRef_ne_of_ne (by decide : main_v10_0 ≠ main_v10_1) : (Proc.devRef .tc main_v10_0 : DevRef τ sig) ≠ Proc.devRef .tc main_v10_1), Function.update_self]
  have e1 : V₂ m c main_v10_1 = o1 m c := by
    simp only [V₂, Function.update_of_ne (StableHlo.devRef_ne_of_ne (by decide : main_v10_1 ≠ main_v10_2) : (Proc.devRef .tc main_v10_1 : DevRef τ sig) ≠ Proc.devRef .tc main_v10_2), Function.update_self]
  have e2 : V₂ m c main_v10_2 = o2 m c := by
    simp only [V₂, Function.update_self]
  rw [e0, e1, e2]
  iintro ⟨H7l, H7r, H8, H9, Ha, Hb, Hc⟩
  isplitl [H7l H7r]
  · iapply (pointsTo_share (PosShare.mem_left_op_right fullShare)).2
    isplitl [H7l]; · iexact H7l
    iexact H7r
  isplitl [H8]; · iexact H8
  isplitl [H9]; · iexact H9
  isplitl [Ha]; · iexact Ha
  isplitl [Hb]; · iexact Hb
  iexact Hc

/-- The buffers no window stages are the same before and after the region. -/
theorem rest_eq (c : Dev nD) : (unscopedRest spec0 c (fun b => V₂ m c b) : sProp 𝕄) = unscopedRest spec0 c (V m c) := by
  unfold unscopedRest
  refine bigSep_congr fun b hb => ?_
  have hb' : b ∉ (Finset.univ.image (arrRef spec0) : Finset (Ref sig .tc)) := (Finset.mem_sdiff.mp hb).2
  rw [arr_image] at hb'
  have hn : b ∉ ([main_v10_0, main_v10_1, main_v10_2] : List (Ref sig .tc)) := fun h => hb' (by
    rw [List.mem_toFinset]
    rcases List.mem_cons.mp h with rfl | h; · decide
    rcases List.mem_cons.mp h with rfl | h; · decide
    rcases List.mem_cons.mp h with rfl | h; · decide
    exact absurd h (List.not_mem_nil))
  dsimp only
  rw [V₂_of m c b hn]

/-! ## The segments -/

/-- No core owes another anything: no level is assigned. -/
abbrev L : GSem nD τ sig → Finset Unit := fun _ => ∅
abbrev lv : GSem nD τ sig → Unit → ℕ := fun _ _ => 0
/-- The prefetched tables' admissible contents: there is no table. -/
abbrev adm : (p : Fin 1) → (pcfgs (F := F) p).Adm := fun p => (cfgs p).toPCfg_adm
/-- What rides beside the buffers from segment to segment: the core owing nothing. -/
abbrev R (c : Dev nD) : sProp 𝕄 := iprop(∃ W, owes (c : Thread nD τ) (0 : CellTallies nD τ sig Unit) W)
/-- The pipeline library's algebra is the whole of the certificate's. -/
abbrev EP : Emb (UR sig nD τ) (MT nD τ sig Unit (Elt F) ℕ (UR sig nD τ) ℕ) := emb₁

/-- The two reshapes; -/
def segA : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) R

/-- the row norms; -/
def segB : HostSeg (Ix := Unit) (Name := ℕ) (U := UR sig nD τ) (Lvl := ℕ) (pcfgs (F := F)) defs₀ Variants.none L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (Va m) R

/-- the clamp, the division, the change of format, the labels' reshapes; -/
def segC : HostSeg (Ix := Unit) (Name := ℕ) (U := UR sig nD τ) (Lvl := ℕ) (pcfgs (F := F)) defs₀ Variants.none L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (Vb m) R

/-- the operations on the region's three results. -/
def segD : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V₂ m) R

set_option backward.isDefEq.respectTransparency.types false in
/-- THE REGION: the layout as decided, no semaphore of its own, the body obligation; entered from the buffers as the
    third stretch left them — the six its windows stage go to the pipeline, the matrix split between its two windows,
    the others pass by — and left with the three results at what the write-backs made of them. -/
def reg : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(emp)
  Y c := iprop(emp)
  Z c := unscopedRest spec0 c (V m c)
  hentry c := by
    rw [← Pipeline.unscopedBufs_held (Ix := Unit) (Name := ℕ) (U := UR sig nD τ) (Lvl := ℕ) c (V₁ m c),
      show unscopedBufs c (fun b => V₁ m c b) = iprop((arrBufs spec0 c (V m c) : sProp 𝕄) ∗ unscopedRest spec0 c (V m c)) from
        Pipeline.unscopedBufs_split₀ cfgs 0 winFacts₀0.arr_unscoped c (V m c)]
    iintro ⟨⟨⟨Ha, Hrest⟩, HO⟩, -, -⟩
    ihave Harr := (arrays_in m c) $$ [Ha]
    · iexact Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [← Pipeline.unscopedBufs_held (Ix := Unit) (Name := ℕ) (U := UR sig nD τ) (Lvl := ℕ) c (V₂ m c),
      Pipeline.unscopedBufs_split₀ cfgs 0 winFacts₀0.arr_unscoped c (fun b => V₂ m c b), rest_eq m c]
    iintro ⟨Ha, HO, -, HZ⟩
    ihave Harr := (arrays_out m c) $$ [Ha]
    · iexact Ha
    imodintro
    isplitr [HO]
    · isplitl [Harr]; · iexact Harr
      iexact HZ
    · unfold Pipeline.Dat.owesAt Pipeline.owesWithin
      icases HO with ⟨%W, -, HO⟩; iexists W; iexact HO

/-- The program as the list of the five. -/
abbrev segs : List (Seg (pcfgs (F := F)) adm (dats m) () defs₀ Variants.none L lv) :=
  [.host (segA m), .host (segB m), .host (segC m), .region (reg m), .host (segD m)]

/-- The launch element: the pipeline library's, at the staging cells. -/
def u₀ : UR sig nD τ := initOf (Pipeline.cells cfgs cellOf_inj) (Pipeline.launchToks cfgs cellOf_inj)

set_option backward.isDefEq.respectTransparency.types false in
/-- THE RUN. From any memory with zero counters, for any float values: every weakly fair execution of the program on
    the TensorCores terminates, nothing faulting, and every final state holds the result at the last stretch's value of
    the region's results and both argument arrays as launched. -/
theorem run_main : θ_run defs (onTc (τ := τ) (main (F := F))) ⟨m, fun _ => 0, ρ⟩ (fun r => ∀ c : Dev nD,
      r.2.mem ((c.tc : Thread nD τ).loc main_v29) = V₃ m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ Variants.none L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₃ m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held (Ix := Unit) (Name := ℕ) (U := UR sig nD τ) (Lvl := ℕ) c (V₀ m c)]
      iintro ⟨⟨Hh, -, HO, -, -, -⟩, -⟩
      imodintro
      isplitl [Hh]; · iexact Hh
      iexists ∅; iexact HO)
    (QY := fun c s => s.mem ((c.tc : Thread nD τ).loc main_v29) = V₃ m c main_v29
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c : Thread nD τ).1, b)) (V₃ m c) s') $$ [Hh HSI]
      · isplitl [Hh] <;> iassumption
      icases Hr with ⟨%h, HSI⟩
      imodintro
      isplitr
      · ipureintro
        exact ⟨h (Proc.devRef .tc main_v29) (Finset.mem_filter.mpr ⟨StableHlo.devRef_mem_tcRefs main_v29, by decide⟩),
          (h (Proc.devRef .tc main_arg0) (Finset.mem_filter.mpr ⟨StableHlo.devRef_mem_tcRefs main_arg0, by decide⟩)).trans (V₃_arg0 m c),
          (h (Proc.devRef .tc main_arg1) (Finset.mem_filter.mpr ⟨StableHlo.devRef_mem_tcRefs main_arg1, by decide⟩)).trans (V₃_arg1 m c)⟩
      · iexact HSI)
    (hQ := fun _ h => h)

/-- THE FRAME: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KFrameBase.lean ====
/-
  What the runs of the kernel body and the launch share, for the program as printed
  (its float constants plain words, for any reading of the float operations).

  The program is three stretches of host operations (two reshapes; the row norms; the
  clamp, the division, the change of format and two reshapes of the labels), one kernel
  region over a grid of 2 x 4 points, and a last stretch of host operations on the region's
  three results. This module names the contents of every buffer when the region is entered,
  the block of each windowed array a grid point works on, and the one condition the body
  branches on: the second grid coordinate being zero, which holds at the points 0 and 4.
-/
import proofs.«157627_j59528246722684_2_alg».proof.Proof.Gen.Kernel.Launch
import proofs.«157627_j59528246722684_2_alg».proof.Proof.Gen.Kernel.Skeleton
import proofs.«157627_j59528246722684_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers as launched, -/
abbrev V₀ (c : Dev nD) : Valuation τ sig (Elt F) := fun b => m ((c : Dev nD), b)
/-- after the two reshapes, -/
abbrev Va (c : Dev nD) : Valuation τ sig (Elt F) := StableHlo.after hostOps0 (V₀ m c)
/-- after the row norms, -/
abbrev Vb (c : Dev nD) : Valuation τ sig (Elt F) := StableHlo.after hostOps0_1 (Va m c)
/-- and when the region is entered. -/
abbrev V₁ (c : Dev nD) : Valuation τ sig (Elt F) := StableHlo.after hostOps0_2 (Vb m c)
/-- The same, read at a TensorCore reference. -/
abbrev V (c : Dev nD) (b : Ref sig .tc) : Buf (Elt F) ((c : Thread nD τ).loc b) := V₁ m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    index has not moved since the last fetch — for any proof data whose array is the region-entry contents and
    whose body leaves the block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional: the second grid coordinate is zero. -/
abbrev cond0 (i : grid0.Coords) : Prop := (Scalar.cmpi .ne (Scalar.extui (Scalar.cmpi .eq (BitVec.ofNat 32 (i 1).val) 0#32)) 0#32) = 1#1
/-- It holds at the first point of each row of the grid. -/
theorem hcond0 : ∀ t : Fin cfg0.N, cond0 (grid0.coords t) ↔ t.val % 4 = 0 :=
  (by decide +kernel : ∀ t : Fin grid0.N, cond0 (grid0.coords t) ↔ t.val % 4 = 0)

/-! ## The staging memrefs at a point -/

/-- One staging buffer of each output window, through which its contents are stated. -/
abbrev VO4 : View sig .tc .vmem S1x1x1 .f32 := (Memref.whole cc0_stg4_0 : Memref sig .tc .vmem S1x1x1 .f32).view
abbrev VO5 : View sig .tc .vmem S1x1x1 .f32 := (Memref.whole cc0_stg5_0 : Memref sig .tc .vmem S1x1x1 .f32).view
abbrev VO6 : View sig .tc .vmem S1x1x1 .f32 := (Memref.whole cc0_stg6_0 : Memref sig .tc .vmem S1x1x1 .f32).view
/-- Each window's current staging memref at point `t`, as the pipeline passes it to the body, and its wholeness. -/
abbrev ms0 (t : Fin cfg0.N) : Memref sig .tc .vmem S4096x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)

end Cert.Kernel.Hand

end
-- ==== Proof.KFrameRunA.lean ====
/-
  For the program as printed (its float constants plain words):
  the kernel body run once at a point whose second grid coordinate is zero: the three
  accumulators are first overwritten with zeros, then each receives its tile's total added
  to what it then holds. What each accumulator's buffer ends with is recorded as the list of
  the body's stores into it, last first.
-/
import proofs.«157627_j59528246722684_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The stores the body makes into each accumulator's staging buffer when the branch is taken, with the proof that
    from whole staging buffers — the four inputs' at their contents, the accumulators' at anything — the body runs
    to the end, the inputs' buffers as they were and each accumulator's with those stores written. -/
noncomputable def kernelRunA (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) :
    Σ' (L4 : List (View.Piece (Elt F) S1x1x1 .f32)), Σ' (L5 : List (View.Piece (Elt F) S1x1x1 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__supcon_reduce_kernel i arg2 harg2 arg3 harg3 arg4 harg4 arg5 harg5 arg6 harg6 arg7 harg7 arg8 harg8) K } := by
  refine ⟨?_, ?_, ?_, fun E K => ?run⟩
  case run =>
    simp only [cc0__supcon_reduce_kernel_eq_skeleton]; unfold cc0__supcon_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Hand

end
-- ==== Proof.KFrameRunB.lean ====
/-
  For the program as printed (its float constants plain words):
  the kernel body run once at a point whose second grid coordinate is not zero: nothing is
  reset, and each accumulator receives its tile's total added to what the point before left
  in it. What each accumulator's buffer ends with is recorded as the list of the body's
  stores into it, last first.
-/
import proofs.«157627_j59528246722684_2_alg».proof.Proof.KFrameRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The stores the body makes into each accumulator's staging buffer when the branch is not taken, with the proof
    that from whole staging buffers — the four inputs' at their contents, the accumulators' at their running
    contents — the body runs to the end, the inputs' buffers as they were and each accumulator's with those
    stores written. -/
noncomputable def kernelRunB (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) :
    Σ' (L4 : List (View.Piece (Elt F) S1x1x1 .f32)), Σ' (L5 : List (View.Piece (Elt F) S1x1x1 .f32)), { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__supcon_reduce_kernel i arg2 harg2 arg3 harg3 arg4 harg4 arg5 harg5 arg6 harg6 arg7 harg7 arg8 harg8) K } := by
  refine ⟨?_, ?_, ?_, fun E K => ?run⟩
  case run =>
    simp only [cc0__supcon_reduce_kernel_eq_skeleton]; unfold cc0__supcon_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Hand

end
-- ==== Proof.KFrameData.lean ====
/-
  For the program as printed (its float constants plain words): what the three accumulators
  hold point by point, the proof data of the pipeline, and the body's obligation at every grid point.

  The grid's points are numbered 0..7 in row-major order, four to a row. At the first point
  of a row the accumulators are reset and receive the first tile's totals; at each later point
  of the row they receive that tile's totals on top of what the point before left. An
  accumulator's block is written back to its array after the last point of its row only, so
  between the points of one row its staging buffer is untouched.
-/
import proofs.«157627_j59528246722684_2_alg».proof.Proof.KFrameRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The stores of this case into accumulator 0 cover its one-element block. -/
theorem coverA4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) (y : S1x1x1.Idx) :
    ∃ pc ∈ (kernelRunA c i arg2 harg2 arg3 harg3 arg4 harg4 arg5 harg5 arg6 harg6 arg7 harg7 arg8 harg8 hc0 x0 x1 x2 x3).1, y ∈ pc.1.set :=
  View.cover_of_tiledL (kernelRunA c i arg2 harg2 arg3 harg3 arg4 harg4 arg5 harg5 arg6 harg6 arg7 harg7 arg8 harg8 hc0 x0 x1 x2 x3).1 S1x1x1.size (by sl_kernel_rfl) y

/-- What this case leaves in accumulator 0's staging buffer: its stores read back. -/
def outA4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) : Vec F S1x1x1 .f32 :=
  VO4.read (Elt F) (VO4.writes (Elt F) VO4.junk (kernelRunA c i arg2 harg2 arg3 harg3 arg4 harg4 arg5 harg5 arg6 harg6 arg7 harg7 arg8 harg8 hc0 x0 x1 x2 x3).1)

/-- The stores of this case into accumulator 1 cover its one-element block. -/
theorem coverA5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) (y : S1x1x1.Idx) :
    ∃ pc ∈ (kernelRunA c i arg2 harg2 arg3 harg3 arg4 harg4 arg5 harg5 arg6 harg6 arg7 harg7 arg8 harg8 hc0 x0 x1 x2 x3).2.1, y ∈ pc.1.set :=
  View.cover_of_tiledL (kernelRunA c i arg2 harg2 arg3 harg3 arg4 harg4 arg5 harg5 arg6 harg6 arg7 harg7 arg8 harg8 hc0 x0 x1 x2 x3).2.1 S1x1x1.size (by sl_kernel_rfl) y

/-- What this case leaves in accumulator 1's staging buffer: its stores read back. -/
def outA5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) : Vec F S1x1x1 .f32 :=
  VO5.read (Elt F) (VO5.writes (Elt F) VO5.junk (kernelRunA c i arg2 harg2 arg3 harg3 arg4 harg4 arg5 harg5 arg6 harg6 arg7 harg7 arg8 harg8 hc0 x0 x1 x2 x3).2.1)

/-- The stores of this case into accumulator 2 cover its one-element block. -/
theorem coverA6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) (y : S1x1x1.Idx) :
    ∃ pc ∈ (kernelRunA c i arg2 harg2 arg3 harg3 arg4 harg4 arg5 harg5 arg6 harg6 arg7 harg7 arg8 harg8 hc0 x0 x1 x2 x3).2.2.1, y ∈ pc.1.set :=
  View.cover_of_tiledL (kernelRunA c i arg2 harg2 arg3 harg3 arg4 harg4 arg5 harg5 arg6 harg6 arg7 harg7 arg8 harg8 hc0 x0 x1 x2 x3).2.2.1 S1x1x1.size (by sl_kernel_rfl) y

/-- What this case leaves in accumulator 2's staging buffer: its stores read back. -/
def outA6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) : Vec F S1x1x1 .f32 :=
  VO6.read (Elt F) (VO6.writes (Elt F) VO6.junk (kernelRunA c i arg2 harg2 arg3 harg3 arg4 harg4 arg5 harg5 arg6 harg6 arg7 harg7 arg8 harg8 hc0 x0 x1 x2 x3).2.2.1)

/-- The stores of this case into accumulator 0 cover its one-element block. -/
theorem coverB4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) (y : S1x1x1.Idx) :
    ∃ pc ∈ (kernelRunB c i arg2 harg2 arg3 harg3 arg4 harg4 arg5 harg5 arg6 harg6 arg7 harg7 arg8 harg8 hc0 x0 x1 x2 x3 xo4 xo5 xo6).1, y ∈ pc.1.set :=
  View.cover_of_tiledL (kernelRunB c i arg2 harg2 arg3 harg3 arg4 harg4 arg5 harg5 arg6 harg6 arg7 harg7 arg8 harg8 hc0 x0 x1 x2 x3 xo4 xo5 xo6).1 S1x1x1.size (by sl_kernel_rfl) y

/-- What this case leaves in accumulator 0's staging buffer: its stores read back. -/
def outB4 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) : Vec F S1x1x1 .f32 :=
  VO4.read (Elt F) (VO4.writes (Elt F) VO4.junk (kernelRunB c i arg2 harg2 arg3 harg3 arg4 harg4 arg5 harg5 arg6 harg6 arg7 harg7 arg8 harg8 hc0 x0 x1 x2 x3 xo4 xo5 xo6).1)

/-- The stores of this case into accumulator 1 cover its one-element block. -/
theorem coverB5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) (y : S1x1x1.Idx) :
    ∃ pc ∈ (kernelRunB c i arg2 harg2 arg3 harg3 arg4 harg4 arg5 harg5 arg6 harg6 arg7 harg7 arg8 harg8 hc0 x0 x1 x2 x3 xo4 xo5 xo6).2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.1 S1x1x1.size (by sl_kernel_rfl) y

/-- What this case leaves in accumulator 1's staging buffer: its stores read back. -/
def outB5 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) : Vec F S1x1x1 .f32 :=
  VO5.read (Elt F) (VO5.writes (Elt F) VO5.junk (kernelRunB c i arg2 harg2 arg3 harg3 arg4 harg4 arg5 harg5 arg6 harg6 arg7 harg7 arg8 harg8 hc0 x0 x1 x2 x3 xo4 xo5 xo6).2.1)

/-- The stores of this case into accumulator 2 cover its one-element block. -/
theorem coverB6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) (y : S1x1x1.Idx) :
    ∃ pc ∈ (kernelRunB c i arg2 harg2 arg3 harg3 arg4 harg4 arg5 harg5 arg6 harg6 arg7 harg7 arg8 harg8 hc0 x0 x1 x2 x3 xo4 xo5 xo6).2.2.1, y ∈ pc.1.set :=
  View.cover_of_tiledL (kernelRunB c i arg2 harg2 arg3 harg3 arg4 harg4 arg5 harg5 arg6 harg6 arg7 harg7 arg8 harg8 hc0 x0 x1 x2 x3 xo4 xo5 xo6).2.2.1 S1x1x1.size (by sl_kernel_rfl) y

/-- What this case leaves in accumulator 2's staging buffer: its stores read back. -/
def outB6 (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 : Vec F S1x1x1 .f32) (xo5 : Vec F S1x1x1 .f32) (xo6 : Vec F S1x1x1 .f32) : Vec F S1x1x1 .f32 :=
  VO6.read (Elt F) (VO6.writes (Elt F) VO6.junk (kernelRunB c i arg2 harg2 arg3 harg3 arg4 harg4 arg5 harg5 arg6 harg6 arg7 harg7 arg8 harg8 hc0 x0 x1 x2 x3 xo4 xo5 xo6).2.2.1)

/-! ## What the accumulators hold after each point -/

/-- The three accumulators after a point that resets them. -/
def outsA (c : Dev nD) (t : Fin cfg0.N) (h0 : t.val % 4 = 0) : Vec F S1x1x1 .f32 × Vec F S1x1x1 .f32 × Vec F S1x1x1 .f32 :=
  (outA4 c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t),
   outA5 c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t),
   outA6 c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t))

/-- The three accumulators after a point that adds to what they held (`p`). -/
def outsB (c : Dev nD) (t : Fin cfg0.N) (h0 : ¬t.val % 4 = 0) (p : Vec F S1x1x1 .f32 × Vec F S1x1x1 .f32 × Vec F S1x1x1 .f32) :
    Vec F S1x1x1 .f32 × Vec F S1x1x1 .f32 × Vec F S1x1x1 .f32 :=
  (outB4 c (grid0.coords t) (ms0 t) (hs0 t) (ms1 t) (hs1 t) (ms2 t) (hs2 t) (ms3 t) (hs3 t) (ms4 t) (hs4 t) (ms5 t) (hs5 t) (ms6 t) (hs6 t) (fun h => h0 ((hcond0 t).mp h)) (iblk m c 0 t) (iblk m c 1 t) (iblk m c 2 t) (iblk m c 3 t) p.1 p.2.1 p.2.2,
   outB5 c (grid0.coords t) (ms0 t) (hs0 t) (ms1 t) (hs1 t) (ms2 t) (hs2 t) (ms3 t) (hs3 t) (ms4 t) (hs4 t) (ms5 t) (hs5 t) (ms6 t) (hs6 t) (fun h => h0 ((hcond0 t).mp h)) (iblk m c 0 t) (iblk m c 1 t) (iblk m c 2 t) (iblk m c 3 t) p.1 p.2.1 p.2.2,
   outB6 c (grid0.coords t) (ms0 t) (hs0 t) (ms1 t) (hs1 t) (ms2 t) (hs2 t) (ms3 t) (hs3 t) (ms4 t) (hs4 t) (ms5 t) (hs5 t) (ms6 t) (hs6 t) (fun h => h0 ((hcond0 t).mp h)) (iblk m c 0 t) (iblk m c 1 t) (iblk m c 2 t) (iblk m c 3 t) p.1 p.2.1 p.2.2)

/-- The accumulation: what the three staging buffers hold after the body at position `n`. -/
def outsAt (c : Dev nD) : (n : ℕ) → n < cfg0.N → Vec F S1x1x1 .f32 × Vec F S1x1x1 .f32 × Vec F S1x1x1 .f32
  | 0, hn => outsA m c ⟨0, hn⟩ (Nat.zero_mod _)
  | n + 1, hn =>
    if h0 : (n + 1) % 4 = 0 then outsA m c ⟨n + 1, hn⟩ h0
    else outsB m c ⟨n + 1, hn⟩ h0 (outsAt c n (Nat.lt_of_succ_lt hn))

/-- At a point that resets: that case's contents. -/
theorem outsAt_A (c : Dev nD) (t : Fin cfg0.N) (h0 : t.val % 4 = 0) : outsAt m c t.val t.isLt = outsA m c t h0 := by
  obtain ⟨n, hn⟩ := t
  cases n with
  | zero => exact rfl
  | succ n => exact (dif_pos h0).trans rfl

/-- At a point that adds: that case's contents, over what the point before left. -/
theorem outsAt_B (c : Dev nD) (t : Fin cfg0.N) (h0 : ¬t.val % 4 = 0) :
    outsAt m c t.val t.isLt = outsB m c t h0 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the accumulators' at `outsAt`; the invariant the scoped buffers no
    window stages (there is none); nothing owed; the matrix, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

/-- Each input's current staging buffer holds its block at every point. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- At a point that adds, an accumulator's current staging buffer holds what the body left at the point before: the
    point is not the first, and the buffer was not written back between (write-backs follow the last point of a row). -/
theorem before4_B (c : Dev nD) (t : Fin cfg0.N) (h0 : ¬t.val % 4 = 0) (d) :
    (dats m 0 c).before 4 t d = (outsAt m c (t.val - 1) (Nat.lt_of_le_of_lt (Nat.sub_le _ _) t.isLt)).1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
theorem before5_B (c : Dev nD) (t : Fin cfg0.N) (h0 : ¬t.val % 4 = 0) (d) :
    (dats m 0 c).before 5 t d = (outsAt m c (t.val - 1) (Nat.lt_of_le_of_lt (Nat.sub_le _ _) t.isLt)).2.1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]
theorem before6_B (c : Dev nD) (t : Fin cfg0.N) (h0 : ¬t.val % 4 = 0) (d) :
    (dats m 0 c).before 6 t d = (outsAt m c (t.val - 1) (Nat.lt_of_le_of_lt (Nat.sub_le _ _) t.isLt)).2.2 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the point is a reset or an addition according to
    its position in its row, and at an addition the accumulators hold what the point before left; so the matching
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 4 = 0
  · rw [outsAt_A m c t h0]
    unfold outsA outA4 outA5 outA6
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcond0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 c _ _ _ _ _ _ _ _ _ _ _ _ _ _ _ _ _ _ _ _)
    isplitl [H5]
    · unfold owns; iexists _; isplitr
      swap; · iexact H5
      ipureintro; exact View.read_writes_of_cover _ _ _ _ _ (coverA5 c _ _ _ _ _ _ _ _ _ _ _ _ _ _ _ _ _ _ _ _)
    unfold owns; iexists _; isplitr
    swap; · iexact H6
    ipureintro; exact View.read_writes_of_cover _ _ _ _ _ (coverA6 c _ _ _ _ _ _ _ _ _ _ _ _ _ _ _ _ _ _ _ _)
  · rw [outsAt_B m c t h0]
    simp only [before4_B m c t h0, before5_B m c t h0, before6_B m c t h0]
    unfold outsB outB4 outB5 outB6
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (fun h => h0 ((hcond0 t).mp h)) (iblk m c 0 t) (iblk m c 1 t) (iblk m c 2 t) (iblk m c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 c _ _ _ _ _ _ _ _ _ _ _ _ _ _ _ _ _ _ _ _ _ _ _)
    isplitl [H5]
    · unfold owns; iexists _; isplitr
      swap; · iexact H5
      ipureintro; exact View.read_writes_of_cover _ _ _ _ _ (coverB5 c _ _ _ _ _ _ _ _ _ _ _ _ _ _ _ _ _ _ _ _ _ _ _)
    unfold owns; iexists _; isplitr
    swap; · iexact H6
    ipureintro; exact View.read_writes_of_cover _ _ _ _ _ (coverB6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrameLaunch.lean ====
/-
  The launch of the program as printed (its float constants plain words): the program as five segments — three stretches of host operations, the
  kernel region, a last stretch of host operations — composed in order, each entered from what
  the one before left.

  Between two segments the core holds every unscoped buffer whole at a known valuation. The
  region takes, out of those, the six buffers its windows stage (the normalized matrix, which
  TWO windows read and which is therefore split into two half shares at entry and rejoined at
  exit; the two label arrays; the three results) and gives them back with the three results at
  what the pipeline's write-backs left. Everything else passes by untouched, so the two argument
  arrays end as launched.
-/
import proofs.«157627_j59528246722684_2_alg».proof.Proof.KFrameData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg unscopedRest arrBufs arrRef)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## What the host stretches write -/

theorem hostOps0_fresh : (hostOps0 : List (HloOp τ sig (Elt F))).Forall fun op => op.fresh = ∅ := by
  simp only [List.Forall]; repeat' constructor
/-- The references the stretch writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

theorem hostOps0_1_fresh : (hostOps0_1 : List (HloOp τ sig (Elt F))).Forall fun op => op.fresh = ∅ := by
  simp only [List.Forall]; repeat' constructor
/-- The references the stretch writes. -/
abbrev hostOps0_1_W : List (Ref sig .tc) := [main_call0_v0, main_call0_cst, main_call0_v1, main_call0_v2, main_v2]
theorem hostOps0_1_writes : (hostOps0_1 : List (HloOp τ sig (Elt F))).Forall fun op => op.writes ⊆ (hostOps0_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

theorem hostOps0_2_fresh : (hostOps0_2 : List (HloOp τ sig (Elt F))).Forall fun op => op.fresh = ∅ := by
  simp only [List.Forall]; repeat' constructor
/-- The references the stretch writes. -/
abbrev hostOps0_2_W : List (Ref sig .tc) := [main_cst, main_v3, main_v4, main_v5, main_v6, main_v7, main_v8, main_v9]
theorem hostOps0_2_writes : (hostOps0_2 : List (HloOp τ sig (Elt F))).Forall fun op => op.writes ⊆ (hostOps0_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

theorem hostOps1_fresh : (hostOps1 : List (HloOp τ sig (Elt F))).Forall fun op => op.fresh = ∅ := by
  simp only [List.Forall]; repeat' constructor
/-- The references the stretch writes. -/
abbrev hostOps1_W : List (Ref sig .tc) := [main_cst_0, main_v11, main_cst_1, main_v12, main_cst_2, main_v13, main_cst_3, main_cst_4, main_v14, main_v15, main_v16, main_v17, main_v18, main_v19, main_cst_5, main_v20, main_v21, main_v22, main_v23, main_v24, main_v25, main_v26, main_v27, main_v28, main_v29]
theorem hostOps1_writes : (hostOps1 : List (HloOp τ sig (Elt F))).Forall fun op => op.writes ⊆ (hostOps1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-! ## The buffers after the region and at the end -/

/-- What the region leaves in its three results: what the pipeline's write-backs make of them. -/
abbrev o0 (c : Dev nD) : Buf (Elt F) ((c : Thread nD τ).loc main_v10_0) := (dats m 0 c).arrAt 4 cfg0.N
abbrev o1 (c : Dev nD) : Buf (Elt F) ((c : Thread nD τ).loc main_v10_1) := (dats m 0 c).arrAt 5 cfg0.N
abbrev o2 (c : Dev nD) : Buf (Elt F) ((c : Thread nD τ).loc main_v10_2) := (dats m 0 c).arrAt 6 cfg0.N

/-- Core `c`'s buffers after the region: the three results changed, nothing else. -/
abbrev V₂ (c : Dev nD) : Valuation τ sig (Elt F) :=
  Function.update (Function.update (Function.update (V₁ m c) main_v10_0 (o0 m c)) main_v10_1 (o1 m c)) main_v10_2 (o2 m c)
/-- Core `c`'s buffers at the end. -/
abbrev V₃ (c : Dev nD) : Valuation τ sig (Elt F) := StableHlo.after hostOps1 (V₂ m c)

/-- A buffer that is none of the three results is not changed by the region. -/
theorem V₂_of (c : Dev nD) (r : Ref sig .tc) (h : r ∉ ([main_v10_0, main_v10_1, main_v10_2] : List (Ref sig .tc))) : V₂ m c r = V₁ m c r := by
  have h0 : r ≠ main_v10_0 := fun e => h (by rw [e]; decide)
  have h1 : r ≠ main_v10_1 := fun e => h (by rw [e]; decide)
  have h2 : r ≠ main_v10_2 := fun e => h (by rw [e]; decide)
  simp only [V₂, Function.update_of_ne (StableHlo.devRef_ne_of_ne h2 : (Proc.devRef .tc r : DevRef τ sig) ≠ Proc.devRef .tc main_v10_2),
    Function.update_of_ne (StableHlo.devRef_ne_of_ne h1 : (Proc.devRef .tc r : DevRef τ sig) ≠ Proc.devRef .tc main_v10_1),
    Function.update_of_ne (StableHlo.devRef_ne_of_ne h0 : (Proc.devRef .tc r : DevRef τ sig) ≠ Proc.devRef .tc main_v10_0)]

/-- The first argument reaches the end as launched: no host stretch writes it and the region does not change it. -/
theorem V₃_arg0 (c : Dev nD) : V₃ m c main_arg0 = m ((c : Thread nD τ).loc main_arg0) :=
  (StableHlo.after_of_writes_sub hostOps1 _ hostOps1_writes (by decide)).trans <| (V₂_of m c main_arg0 (by decide)).trans <|
    (StableHlo.after_of_writes_sub hostOps0_2 _ hostOps0_2_writes (by decide)).trans <|
    (StableHlo.after_of_writes_sub hostOps0_1 _ hostOps0_1_writes (by decide)).trans <|
    (StableHlo.after_of_writes_sub hostOps0 _ hostOps0_writes (by decide)).trans rfl
/-- So does the second. -/
theorem V₃_arg1 (c : Dev nD) : V₃ m c main_arg1 = m ((c : Thread nD τ).loc main_arg1) :=
  (StableHlo.after_of_writes_sub hostOps1 _ hostOps1_writes (by decide)).trans <| (V₂_of m c main_arg1 (by decide)).trans <|
    (StableHlo.after_of_writes_sub hostOps0_2 _ hostOps0_2_writes (by decide)).trans <|
    (StableHlo.after_of_writes_sub hostOps0_1 _ hostOps0_1_writes (by decide)).trans <|
    (StableHlo.after_of_writes_sub hostOps0 _ hostOps0_writes (by decide)).trans rfl

/-! ## The region's six buffers -/

/-- The buffers behind the seven windows' arrays are six: two windows read the normalized matrix. -/
theorem arr_image : (Finset.univ.image (arrRef spec0) : Finset (Ref sig .tc))
    = ([main_v7, main_v8, main_v9, main_v10_0, main_v10_1, main_v10_2] : List (Ref sig .tc)).toFinset := by decide

/-- Those six, one by one. -/
theorem arrBufs_eq (c : Dev nD) (W : (b : Ref sig .tc) → Buf (Elt F) ((c.tc : Thread nD τ).loc b)) :
    (arrBufs spec0 c W : sProp 𝕄)
      = iprop((((c.tc : Thread nD τ).loc main_v7) ↦{fullShare} W main_v7) ∗ (((c.tc : Thread nD τ).loc main_v8) ↦{fullShare} W main_v8) ∗ (((c.tc : Thread nD τ).loc main_v9) ↦{fullShare} W main_v9)
          ∗ (((c.tc : Thread nD τ).loc main_v10_0) ↦{fullShare} W main_v10_0) ∗ (((c.tc : Thread nD τ).loc main_v10_1) ↦{fullShare} W main_v10_1) ∗ (((c.tc : Thread nD τ).loc main_v10_2) ↦{fullShare} W main_v10_2)) := by
  unfold arrBufs
  rw [bigSep_eq_bigSepL_of_eq _ arr_image (by decide)]
  rfl

/-- The pipeline's arrays, one by one: the matrix held half by each of its two windows. -/
theorem arrays_eq7 (c : Dev nD) (G : (w : Fin cfg0.W) → Buf (Elt F) ((cfg0.win w).arr.view.loc (c.tc : Thread nD τ))) :
    ((dats m 0 c).arrays G : sProp 𝕄)
      = iprop((((c.tc : Thread nD τ).loc main_v7) ↦{fullShare.left} G 0) ∗ (((c.tc : Thread nD τ).loc main_v7) ↦{fullShare.right} G 1) ∗ (((c.tc : Thread nD τ).loc main_v8) ↦{fullShare} G 2) ∗ (((c.tc : Thread nD τ).loc main_v9) ↦{fullShare} G 3)
          ∗ (((c.tc : Thread nD τ).loc main_v10_0) ↦{fullShare} G 4) ∗ (((c.tc : Thread nD τ).loc main_v10_1) ↦{fullShare} G 5) ∗ (((c.tc : Thread nD τ).loc main_v10_2) ↦{fullShare} G 6)) := by
  unfold Dat.arrays
  have h : ∀ w : Fin cfg0.W, (((cfg0.win w).arr.view.loc (c.tc : Thread nD τ)) ↦[(cfg0.win w).arr.view.set]{(dats m 0 c).share w} G w : sProp 𝕄)
      = (((c.tc : Thread nD τ).loc (arrRef spec0 w)) ↦{(dats m 0 c).share w} G w) := fun w => by rw [(arr_whole0 w).set_eq_univ]
  rw [bigSep_congr (fun w _ => h w), bigSep_W0]
  rfl

/-- ENTRY: the six buffers at the region-entry contents are the pipeline's arrays at their entry contents, the matrix
    split between its two windows. -/
theorem arrays_in (c : Dev nD) : (arrBufs spec0 c (V m c) : sProp 𝕄) ⊢ (dats m 0 c).arrays ((dats m 0 c).arrAt · 0) := by
  rw [arrBufs_eq, arrays_eq7]
  iintro ⟨H7, H8, H9, Ha, Hb, Hc⟩
  ihave H77 := (pointsTo_share (PosShare.mem_left_op_right fullShare)).1 $$ [H7]
  · iexact H7
  icases H77 with ⟨H7l, H7r⟩
  isplitl [H7l]; · iexact H7l
  isplitl [H7r]; · iexact H7r
  isplitl [H8]; · iexact H8
  isplitl [H9]; · iexact H9
  isplitl [Ha]; · iexact Ha
  isplitl [Hb]; · iexact Hb
  iexact Hc

/-- EXIT: the pipeline's arrays at their final contents are the six buffers at the valuation after the region: the
    inputs as they were (an input array is never written), the matrix's halves rejoined, the results at what the
    write-backs left. -/
theorem arrays_out (c : Dev nD) : ((dats m 0 c).arrays ((dats m 0 c).arrAt · cfg0.N) : sProp 𝕄) ⊢ arrBufs spec0 c (fun b => V₂ m c b) := by
  rw [arrBufs_eq, arrays_eq7,
    (dats m 0 c).arrAt_in 0 rfl, (dats m 0 c).arrAt_in 1 rfl, (dats m 0 c).arrAt_in 2 rfl, (dats m 0 c).arrAt_in 3 rfl,
    V₂_of m c main_v7 (by decide), V₂_of m c main_v8 (by decide), V₂_of m c main_v9 (by decide)]
  have e0 : V₂ m c main_v10_0 = o0 m c := by
    simp only [V₂, Function.update_of_ne (StableHlo.devRef_ne_of_ne (by decide : main_v10_0 ≠ main_v10_2) : (Proc.devRef .tc main_v10_0 : DevRef τ sig) ≠ Proc.devRef .tc main_v10_2),
      Function.update_of_ne (StableHlo.devRef_ne_of_ne (by decide : main_v10_0 ≠ main_v10_1) : (Proc.devRef .tc main_v10_0 : DevRef τ sig) ≠ Proc.devRef .tc main_v10_1), Function.update_self]
  have e1 : V₂ m c main_v10_1 = o1 m c := by
    simp only [V₂, Function.update_of_ne (StableHlo.devRef_ne_of_ne (by decide : main_v10_1 ≠ main_v10_2) : (Proc.devRef .tc main_v10_1 : DevRef τ sig) ≠ Proc.devRef .tc main_v10_2), Function.update_self]
  have e2 : V₂ m c main_v10_2 = o2 m c := by
    simp only [V₂, Function.update_self]
  rw [e0, e1, e2]
  iintro ⟨H7l, H7r, H8, H9, Ha, Hb, Hc⟩
  isplitl [H7l H7r]
  · iapply (pointsTo_share (PosShare.mem_left_op_right fullShare)).2
    isplitl [H7l]; · iexact H7l
    iexact H7r
  isplitl [H8]; · iexact H8
  isplitl [H9]; · iexact H9
  isplitl [Ha]; · iexact Ha
  isplitl [Hb]; · iexact Hb
  iexact Hc

/-- The buffers no window stages are the same before and after the region. -/
theorem rest_eq (c : Dev nD) : (unscopedRest spec0 c (fun b => V₂ m c b) : sProp 𝕄) = unscopedRest spec0 c (V m c) := by
  unfold unscopedRest
  refine bigSep_congr fun b hb => ?_
  have hb' : b ∉ (Finset.univ.image (arrRef spec0) : Finset (Ref sig .tc)) := (Finset.mem_sdiff.mp hb).2
  rw [arr_image] at hb'
  have hn : b ∉ ([main_v10_0, main_v10_1, main_v10_2] : List (Ref sig .tc)) := fun h => hb' (by
    rw [List.mem_toFinset]
    rcases List.mem_cons.mp h with rfl | h; · decide
    rcases List.mem_cons.mp h with rfl | h; · decide
    rcases List.mem_cons.mp h with rfl | h; · decide
    exact absurd h (List.not_mem_nil))
  dsimp only
  rw [V₂_of m c b hn]

/-! ## The segments -/

/-- No core owes another anything: no level is assigned. -/
abbrev L : GSem nD τ sig → Finset Unit := fun _ => ∅
abbrev lv : GSem nD τ sig → Unit → ℕ := fun _ _ => 0
/-- The prefetched tables' admissible contents: there is no table. -/
abbrev adm : (p : Fin 1) → (pcfgs (F := F) p).Adm := fun p => (cfgs p).toPCfg_adm
/-- What rides beside the buffers from segment to segment: the core owing nothing. -/
abbrev R (c : Dev nD) : sProp 𝕄 := iprop(∃ W, owes (c : Thread nD τ) (0 : CellTallies nD τ sig Unit) W)
/-- The pipeline library's algebra is the whole of the certificate's. -/
abbrev EP : Emb (UR sig nD τ) (MT nD τ sig Unit (Elt F) ℕ (UR sig nD τ) ℕ) := emb₁

/-- The two reshapes; -/
def segA : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) R

/-- the row norms; -/
def segB : HostSeg (Ix := Unit) (Name := ℕ) (U := UR sig nD τ) (Lvl := ℕ) (pcfgs (F := F)) defs₀ Variants.none L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (Va m) R

/-- the clamp, the division, the change of format, the labels' reshapes; -/
def segC : HostSeg (Ix := Unit) (Name := ℕ) (U := UR sig nD τ) (Lvl := ℕ) (pcfgs (F := F)) defs₀ Variants.none L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (Vb m) R

/-- the operations on the region's three results. -/
def segD : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V₂ m) R

set_option backward.isDefEq.respectTransparency.types false in
/-- THE REGION: the layout as decided, no semaphore of its own, the body obligation; entered from the buffers as the
    third stretch left them — the six its windows stage go to the pipeline, the matrix split between its two windows,
    the others pass by — and left with the three results at what the write-backs made of them. -/
def reg : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(emp)
  Y c := iprop(emp)
  Z c := unscopedRest spec0 c (V m c)
  hentry c := by
    rw [← Pipeline.unscopedBufs_held (Ix := Unit) (Name := ℕ) (U := UR sig nD τ) (Lvl := ℕ) c (V₁ m c),
      show unscopedBufs c (fun b => V₁ m c b) = iprop((arrBufs spec0 c (V m c) : sProp 𝕄) ∗ unscopedRest spec0 c (V m c)) from
        Pipeline.unscopedBufs_split₀ cfgs 0 winFacts₀0.arr_unscoped c (V m c)]
    iintro ⟨⟨⟨Ha, Hrest⟩, HO⟩, -, -⟩
    ihave Harr := (arrays_in m c) $$ [Ha]
    · iexact Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [← Pipeline.unscopedBufs_held (Ix := Unit) (Name := ℕ) (U := UR sig nD τ) (Lvl := ℕ) c (V₂ m c),
      Pipeline.unscopedBufs_split₀ cfgs 0 winFacts₀0.arr_unscoped c (fun b => V₂ m c b), rest_eq m c]
    iintro ⟨Ha, HO, -, HZ⟩
    ihave Harr := (arrays_out m c) $$ [Ha]
    · iexact Ha
    imodintro
    isplitr [HO]
    · isplitl [Harr]; · iexact Harr
      iexact HZ
    · unfold Pipeline.Dat.owesAt Pipeline.owesWithin
      icases HO with ⟨%W, -, HO⟩; iexists W; iexact HO

/-- The program as the list of the five. -/
abbrev segs : List (Seg (pcfgs (F := F)) adm (dats m) () defs₀ Variants.none L lv) :=
  [.host (segA m), .host (segB m), .host (segC m), .region (reg m), .host (segD m)]

/-- The launch element: the pipeline library's, at the staging cells. -/
def u₀ : UR sig nD τ := initOf (Pipeline.cells cfgs cellOf_inj) (Pipeline.launchToks cfgs cellOf_inj)

set_option backward.isDefEq.respectTransparency.types false in
/-- THE RUN. From any memory with zero counters, for any float values: every weakly fair execution of the program on
    the TensorCores terminates, nothing faulting, and every final state holds the result at the last stretch's value of
    the region's results and both argument arrays as launched. -/
theorem run_main : θ_run defs (onTc (τ := τ) (main (F := F))) ⟨m, fun _ => 0, ρ⟩ (fun r => ∀ c : Dev nD,
      r.2.mem ((c.tc : Thread nD τ).loc main_v29) = V₃ m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ Variants.none L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₃ m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held (Ix := Unit) (Name := ℕ) (U := UR sig nD τ) (Lvl := ℕ) c (V₀ m c)]
      iintro ⟨⟨Hh, -, HO, -, -, -⟩, -⟩
      imodintro
      isplitl [Hh]; · iexact Hh
      iexists ∅; iexact HO)
    (QY := fun c s => s.mem ((c.tc : Thread nD τ).loc main_v29) = V₃ m c main_v29
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c : Thread nD τ).1, b)) (V₃ m c) s') $$ [Hh HSI]
      · isplitl [Hh] <;> iassumption
      icases Hr with ⟨%h, HSI⟩
      imodintro
      isplitr
      · ipureintro
        exact ⟨h (Proc.devRef .tc main_v29) (Finset.mem_filter.mpr ⟨StableHlo.devRef_mem_tcRefs main_v29, by decide⟩),
          (h (Proc.devRef .tc main_arg0) (Finset.mem_filter.mpr ⟨StableHlo.devRef_mem_tcRefs main_arg0, by decide⟩)).trans (V₃_arg0 m c),
          (h (Proc.devRef .tc main_arg1) (Finset.mem_filter.mpr ⟨StableHlo.devRef_mem_tcRefs main_arg1, by decide⟩)).trans (V₃_arg1 m c)⟩
      · iexact HSI)
    (hQ := fun _ h => h)

/-- THE FRAME: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.Loss.lean ====
/-
  The last step both programs share: from the three totals
  (the sum of all scaled similarities, the sum over the pairs with equal labels, the number of such pairs)
  to the loss. With `n = 8192 · 8192` ordered pairs,
    gap  = (s1 - s2) / (n - s3) - s2 / s3          (mean over the unequal pairs minus mean over the equal pairs)
    loss = log (1 + exp gap), computed in the stable form  max 0 gap + log1p (exp (-|0 - gap|)),
  with the guard `0 - gap ≠ 0 - gap` (never true on the extended reals) selecting `0 + gap`.
  Also the float constants the two programs spell, as the extended reals their words denote.
-/
import Idealize.ShloMosaic.PureOps.Ideal
import Idealize.ShloMosaic.PureOps.Ideal.Laws

noncomputable section

namespace Cert.SupCon

open Idealize.ShloMosaic

/-- The number of ordered pairs of rows, 8192 · 8192. -/
def nPairs : EReal := ((67108864 : ℝ) : EReal)

/-- Mean scaled similarity over the pairs with unequal labels minus the mean over the pairs with equal labels. -/
def meanGap (s1 s2 s3 : EReal) : EReal :=
  Ideal.div (s1 - s2) (nPairs - s3) - Ideal.div s2 s3

/-- `log (exp 0 + exp d)` in the numerically stable form both programs spell, operation by operation. -/
def logAddExp0 (d : EReal) : EReal :=
  Scalar.select (Ideal.cmp .une (0 - d) (0 - d)) (0 + d)
    (max 0 d + Ideal.log1p (Ideal.exp (-(max (0 - d) (-(0 - d))))))

/-- The loss as a function of the three totals. -/
def lossOf (s1 s2 s3 : EReal) : EReal := logAddExp0 (meanGap s1 s2 s3)

/-! ## The constants -/

/-- The word of `8192 · 8192` as an f32 denotes the real 67108864. -/
theorem ofBits_nPairs : Ideal.ofBits .f32 0x4C800000#32 = nPairs := by
  simp [nPairs, Ideal.ofBits, Ideal.ieee, -EReal.coe_mul]; norm_num

/-- The word of `8192.0` denotes the real 8192. -/
theorem ofBits_8192 : Ideal.ofBits .f32 0x46000000#32 = ((8192 : ℝ) : EReal) := by
  simp [Ideal.ofBits, Ideal.ieee, -EReal.coe_mul]; norm_num

/-- `8192 · 8192` computed on the extended reals from the two words is the number of pairs. -/
theorem ofBits_8192_mul : Ideal.ofBits .f32 0x46000000#32 * Ideal.ofBits .f32 0x46000000#32 = nPairs := by
  rw [ofBits_8192, nPairs, ← EReal.coe_mul]; norm_num

/-- The f32 nearest to 0.07 denotes the dyadic rational 9395241 / 2^27. -/
theorem ofBits_temperature : Ideal.ofBits .f32 0x3D8F5C29#32 = ((9395241 / 134217728 : ℝ) : EReal) := by
  simp [Ideal.ofBits, Ideal.ieee, -EReal.coe_mul]; norm_num

/-- Dividing by that temperature is multiplying by its reciprocal, on every extended real. -/
theorem div_temperature (x : EReal) :
    Ideal.div x (Ideal.ofBits .f32 0x3D8F5C29#32) = x * ((134217728 / 9395241 : ℝ) : EReal) := by
  rw [ofBits_temperature, Ideal.div_coe (by norm_num : (9395241 / 134217728 : ℝ) ≠ 0)]
  congr 2; norm_num

end Cert.SupCon

end
-- ==== Proof.KerTail.lean ====
/-
  The kernel program's host operations after the call: from the three [2,1,1] arrays of partial totals
  (one entry per block of rows) to the loss. Each array is summed over its two entries, and the
  loss is the shared formula of the three totals.
-/
import proofs.«157627_j59528246722684_2_alg».proof.Proof.Gen.KernelIdeal.Launch
import proofs.«157627_j59528246722684_2_alg».proof.Proof.Loss
import Idealize.ShloMosaic.Lib.StableHlo.Run
import Idealize.ShloMosaic.Lib.ValueIdx
import Idealize.ShloMosaic.PureOps.Ideal.Laws

noncomputable section

namespace Cert.KernelIdeal.TailValue

open Cert.KernelIdeal Cert.KernelIdeal.Gen Idealize.ShloMosaic Idealize.ShloMosaic.TcCoe Idealize.SL.Sem
open Idealize.ShloMosaic.StableHlo Idealize.ShloMosaic.ValueIdx
open scoped BigOperators

/-- The host's sum of one [2,1,1] array of partial totals, from the zero word. -/
def total (o : FVec Ideal S2x1x1 .f32) : FVec Ideal S_ .f32 :=
  Host.reduceAdd (F := Ideal) o (constant S_ .f32 0x00000000#32) reducesTo_S2x1x1_S_d0_1_2 h_S_

/-- Mean over the unequal pairs minus mean over the equal pairs, as the host operations compose it. -/
def gap (t0 t1 t2 : FVec Ideal S_ .f32) : FVec Ideal S_ .f32 :=
  subf (F := Ideal) (Host.divf (subf t0 t1) (subf (mulf (constant S_ .f32 0x46000000#32) (constant S_ .f32 0x46000000#32)) t2))
    (Host.divf t1 t2)

/-- The stable `log (1 + exp d)`, as the host operations compose it. -/
def softplus (d : FVec Ideal S_ .f32) : FVec Ideal S_ .f32 :=
  select (cmpf (F := Ideal) .une (subf (constant S_ .f32 0x00000000#32) d) (subf (constant S_ .f32 0x00000000#32) d))
    (addf (F := Ideal) (constant S_ .f32 0x00000000#32) d)
    (addf (F := Ideal) (maximumf (constant S_ .f32 0x00000000#32) d)
      (Host.log1p (Host.exp (Host.negf (Host.absf (subf (constant S_ .f32 0x00000000#32) d))))))

/-- The host operations after the call, as one function of the three arrays of partial totals. -/
def kerTail (o0 o1 o2 : FVec Ideal S2x1x1 .f32) : FVec Ideal S_ .f32 :=
  softplus (gap (total o0) (total o1) (total o2))

set_option maxRecDepth 8192 in
set_option maxHeartbeats 2000000 in
/-- After the host operations that follow the call, the result buffer holds `kerTail` of the three arrays. -/
theorem after_tail (V : Valuation τ sig (Elt Ideal)) :
    StableHlo.after (Cert.KernelIdeal.Gen.hostOps1 (F := Ideal)) V (Proc.devRef .tc main_v29)
      = kerTail (V (Proc.devRef .tc main_v10_0)) (V (Proc.devRef .tc main_v10_1)) (V (Proc.devRef .tc main_v10_2)) := by
  after_results_simp
  rfl

/-- A sum over the indices of a [2,1,1] array is the sum of its two entries. -/
theorem sum_idx_2x1x1 (f : S2x1x1.Idx → EReal) : ∑ i : S2x1x1.Idx, f i = f (ix3 0 0 0) + f (ix3 1 0 0) := by
  let e : Fin 2 ≃ S2x1x1.Idx :=
    { toFun := fun a => ix3 a 0 0
      invFun := fun i => i 0
      left_inv := fun _ => rfl
      right_inv := fun i => by
        funext a
        match a with
        | ⟨0, _⟩ => rfl
        | ⟨1, _⟩ => exact Subsingleton.elim (α := Fin 1) _ _
        | ⟨2, _⟩ => exact Subsingleton.elim (α := Fin 1) _ _ }
  rw [← Equiv.sum_comp e f, Fin.sum_univ_two]
  rfl

/-- The host's sum of a [2,1,1] array is the sum of its two entries. -/
theorem total_apply (o : FVec Ideal S2x1x1 .f32) (i : S_.Idx) :
    total o i = o (ix3 0 0 0) + o (ix3 1 0 0) := by
  unfold total
  simp only [Host.reduceAdd, Ideal.hostReduceAdd_def]
  rw [Ideal.hostReduceAdd_total reducesTo_S2x1x1_S_d0_1_2 (fun b => b.elim0) o _ i, sum_idx_2x1x1]
  show Ideal.ofBits .f32 0x00000000#32 + _ = _
  rw [Ideal.ofBits_zero_f32, zero_add]

/-- The host operations after the call compute the shared loss formula of the three totals,
    each total the sum of the two per-block partial totals. -/
theorem kerTail_eq (o0 o1 o2 : FVec Ideal S2x1x1 .f32) :
    kerTail o0 o1 o2 = fun _ => Cert.SupCon.lossOf (o0 (ix3 0 0 0) + o0 (ix3 1 0 0))
      (o1 (ix3 0 0 0) + o1 (ix3 1 0 0)) (o2 (ix3 0 0 0) + o2 (ix3 1 0 0)) := by
  funext i
  show Scalar.select (Ideal.cmp .une (Ideal.ofBits .f32 0x00000000#32 - gap (total o0) (total o1) (total o2) i)
        (Ideal.ofBits .f32 0x00000000#32 - gap (total o0) (total o1) (total o2) i))
      (Ideal.ofBits .f32 0x00000000#32 + gap (total o0) (total o1) (total o2) i)
      (max (Ideal.ofBits .f32 0x00000000#32) (gap (total o0) (total o1) (total o2) i)
        + Ideal.log1p (Ideal.exp (-(max (Ideal.ofBits .f32 0x00000000#32 - gap (total o0) (total o1) (total o2) i)
            (-(Ideal.ofBits .f32 0x00000000#32 - gap (total o0) (total o1) (total o2) i)))))) = _
  have hg : gap (total o0) (total o1) (total o2) i
      = Cert.SupCon.meanGap (o0 (ix3 0 0 0) + o0 (ix3 1 0 0)) (o1 (ix3 0 0 0) + o1 (ix3 1 0 0)) (o2 (ix3 0 0 0) + o2 (ix3 1 0 0)) := by
    show Ideal.div (total o0 i - total o1 i)
        (Ideal.ofBits .f32 0x46000000#32 * Ideal.ofBits .f32 0x46000000#32 - total o2 i) - Ideal.div (total o1 i) (total o2 i) = _
    rw [total_apply, total_apply, total_apply, Cert.SupCon.ofBits_8192_mul]
    rfl
  rw [hg, Ideal.ofBits_zero_f32]
  rfl

end Cert.KernelIdeal.TailValue

end
-- ==== Proof.Spec.lean ====
/-
  The quantities both programs compute, stated once over plain index types.

  For a matrix `xn` of 8192 rows of 768 entries and a label per row:
  the similarity of rows `P`, `Q` is their inner product scaled by a constant `c`;
  the three totals are the sum of all similarities, the sum of the similarities of
  the pairs whose labels agree, and the number of such pairs (as an extended real).
  Everything lives in the extended reals, where finite sums may be regrouped freely
  (addition is commutative and associative there); no finiteness is needed for that.
-/
import Mathlib.Data.EReal.Basic
import Mathlib.Algebra.BigOperators.Fin
import Mathlib.Algebra.BigOperators.Group.Finset.Basic

noncomputable section

namespace Cert.SupCon

open scoped BigOperators

/-- The temperature's reciprocal, as the exact rational the reference's divisor denotes: 1 / (9395241 / 2^27). -/
def invT : EReal := ((134217728 / 9395241 : ℝ) : EReal)

/-- Inner product of rows `P` and `Q`. -/
def dot (xn : Fin 8192 → Fin 768 → EReal) (P Q : Fin 8192) : EReal := ∑ k : Fin 768, xn P k * xn Q k

/-- 1 when the two rows carry the same label, else 0. -/
def mask (lab : Fin 8192 → BitVec 32) (P Q : Fin 8192) : EReal := if lab P = lab Q then 1 else 0

/-- Sum of all scaled similarities. -/
def sSim (xn : Fin 8192 → Fin 768 → EReal) : EReal := ∑ P : Fin 8192, ∑ Q : Fin 8192, dot xn P Q * invT

/-- Sum of the scaled similarities over the pairs with equal labels. -/
def sMasked (xn : Fin 8192 → Fin 768 → EReal) (lab : Fin 8192 → BitVec 32) : EReal :=
  ∑ P : Fin 8192, ∑ Q : Fin 8192, (dot xn P Q * invT) * mask lab P Q

/-- Number of pairs with equal labels. -/
def sPos (lab : Fin 8192 → BitVec 32) : EReal := ∑ P : Fin 8192, ∑ Q : Fin 8192, mask lab P Q

end Cert.SupCon

end
-- ==== Proof.RefValue.lean ====
/-
  The reference program's result, read as the shared loss formula of the three totals.

  Its normalized matrix `xn` (each row of the input divided by its clamped norm) and its labels are
  named; then, entry by entry: the product of `xn` with its transpose at (P, Q) is the inner product of
  rows P and Q; dividing by the temperature is multiplying by its reciprocal; the comparison of the two
  broadcast label arrays, converted to a float, is 1 when rows P and Q carry the same label, else 0;
  each sum over both axes from the zero word is the double sum over the rows. The last scalar
  operations are the shared formula.
-/
import proofs.«157627_j59528246722684_2_alg».proof.Proof.Gen.ReferenceIdeal.Read
import proofs.«157627_j59528246722684_2_alg».proof.Proof.Spec
import proofs.«157627_j59528246722684_2_alg».proof.Proof.Loss

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

/-- The reference's normalized matrix: row `P`, entry `k`. -/
def xnOf (x : (⟨S16x512x768, .f32⟩ : BufTy).Contents (Elt Ideal)) : Fin 8192 → Fin 768 → EReal :=
  fun P k => val_main_v6 (F := Ideal) x (ix2 P k)

/-- The reference's labels, one per row. -/
def labOf (l : (⟨S16x512, .i32⟩ : BufTy).Contents (Elt Ideal)) : Fin 8192 → BitVec 32 :=
  fun P => val_main_v1 (F := Ideal) l (ix1 P)

/-! ## The similarity matrix -/

/-- The product of the normalized matrix with its transpose, at (P, Q), is the inner product of rows P and Q. -/
theorem v8_at (x : (⟨S16x512x768, .f32⟩ : BufTy).Contents (Elt Ideal)) (P Q : Fin 8192) :
    val_main_v8 (F := Ideal) x (ix2 P Q) = Cert.SupCon.dot (xnOf x) P Q := by
  rw [val_main_v8_apply]
  show _ = ∑ k : Fin 768, val_main_v6 (F := Ideal) x (ix2 P k) * val_main_v6 (F := Ideal) x (ix2 Q k)
  refine Finset.sum_congr rfl fun k _ => ?_
  rw [val_main_v7_apply]
  have e1 : lidx_main_v8 (ix2 P Q) k = ix2 P k := funext fun a => by
    match a with
    | ⟨0, _⟩ => rfl
    | ⟨1, _⟩ => rfl
  have e2 : idx_main_v7 (ridx_main_v8 (ix2 P Q) k) = ix2 Q k := funext fun a => by
    match a with
    | ⟨0, _⟩ => rfl
    | ⟨1, _⟩ => rfl
  rw [e1, e2]

/-- Divided by the temperature: the inner product times the temperature's reciprocal. -/
theorem v10_at (x : (⟨S16x512x768, .f32⟩ : BufTy).Contents (Elt Ideal)) (P Q : Fin 8192) :
    val_main_v10 (F := Ideal) x (ix2 P Q) = Cert.SupCon.dot (xnOf x) P Q * Cert.SupCon.invT := by
  rw [val_main_v10_apply, val_main_v9_apply, val_main_cst_0_apply, v8_at]
  exact Cert.SupCon.div_temperature _

/-! ## The mask -/

/-- The equality bit of two words, read as a float, is 1 when they are equal and 0 otherwise. -/
theorem eqBit_toReal (a b : BitVec 32) :
    (FloatOps.uitofp (F := Ideal) .f32 (IntOp.cmpi .eq a b) : EReal) = if b = a then 1 else 0 := by
  show (((IntOp.cmpi .eq a b).toNat : ℝ) : EReal) = _
  by_cases h : a = b
  · subst h; simp [IntOp.cmpi]
  · have h' : ¬ b = a := fun e => h e.symm
    simp [IntOp.cmpi, h, h']

/-- The mask at (P, Q): 1 when rows P and Q carry the same label, else 0. -/
theorem v16_at (l : (⟨S16x512, .i32⟩ : BufTy).Contents (Elt Ideal)) (P Q : Fin 8192) :
    val_main_v16 (F := Ideal) l (ix2 P Q) = Cert.SupCon.mask (labOf l) P Q := by
  rw [val_main_v16_apply, val_main_v15_apply, val_main_v13_apply, val_main_v14_apply, val_main_v11_apply, val_main_v12_apply]
  have e1 : idx_main_v11 (idx_main_v13 (ix2 P Q)) = ix1 Q := funext fun a => by
    match a with
    | ⟨0, _⟩ => rfl
  have e2 : idx_main_v12 (idx_main_v14 (ix2 P Q)) = ix1 P := funext fun a => by
    match a with
    | ⟨0, _⟩ => rfl
  rw [e1, e2]
  exact eqBit_toReal _ _

/-! ## The three totals -/

/-- A sum over both axes of an 8192 × 8192 array, from the zero word, is the double sum over rows. -/
theorem zero_add_sum_pairs (f : S8192x8192.Idx → EReal) :
    Ideal.ofBits .f32 0x00000000#32 + ∑ j : S8192x8192.Idx, f j = ∑ P : Fin 8192, ∑ Q : Fin 8192, f (ix2 P Q) := by
  rw [Ideal.ofBits_zero_f32, zero_add, sum_idx2]

/-- The number of pairs with equal labels. -/
theorem v17_at (l : (⟨S16x512, .i32⟩ : BufTy).Contents (Elt Ideal)) (i : S_.Idx) :
    val_main_v17 (F := Ideal) l i = Cert.SupCon.sPos (labOf l) := by
  rw [val_main_v17_apply]
  show Ideal.ofBits .f32 0x00000000#32 + _ = _
  rw [zero_add_sum_pairs]
  exact Finset.sum_congr rfl fun P _ => Finset.sum_congr rfl fun Q _ => v16_at l P Q

/-- The sum of all scaled similarities. -/
theorem v22_at (x : (⟨S16x512x768, .f32⟩ : BufTy).Contents (Elt Ideal)) (i : S_.Idx) :
    val_main_v22 (F := Ideal) x i = Cert.SupCon.sSim (xnOf x) := by
  rw [val_main_v22_apply]
  show Ideal.ofBits .f32 0x00000000#32 + _ = _
  rw [zero_add_sum_pairs]
  exact Finset.sum_congr rfl fun P _ => Finset.sum_congr rfl fun Q _ => v10_at x P Q

/-- The sum of the scaled similarities over the pairs with equal labels (first of its two computations). -/
theorem v20_at (x : (⟨S16x512x768, .f32⟩ : BufTy).Contents (Elt Ideal)) (l : (⟨S16x512, .i32⟩ : BufTy).Contents (Elt Ideal))
    (i : S_.Idx) : val_main_v20 (F := Ideal) x l i = Cert.SupCon.sMasked (xnOf x) (labOf l) := by
  rw [val_main_v20_apply]
  show Ideal.ofBits .f32 0x00000000#32 + _ = _
  rw [zero_add_sum_pairs]
  refine Finset.sum_congr rfl fun P _ => Finset.sum_congr rfl fun Q _ => ?_
  show val_main_v10 (F := Ideal) x (ix2 P Q) * val_main_v16 (F := Ideal) l (ix2 P Q) = _
  rw [v10_at, v16_at]

/-- The same sum, computed a second time by the reference. -/
theorem v24_at (x : (⟨S16x512x768, .f32⟩ : BufTy).Contents (Elt Ideal)) (l : (⟨S16x512, .i32⟩ : BufTy).Contents (Elt Ideal))
    (i : S_.Idx) : val_main_v24 (F := Ideal) x l i = Cert.SupCon.sMasked (xnOf x) (labOf l) := by
  rw [val_main_v24_apply]
  show Ideal.ofBits .f32 0x00000000#32 + _ = _
  rw [zero_add_sum_pairs]
  refine Finset.sum_congr rfl fun P _ => Finset.sum_congr rfl fun Q _ => ?_
  show val_main_v10 (F := Ideal) x (ix2 P Q) * val_main_v16 (F := Ideal) l (ix2 P Q) = _
  rw [v10_at, v16_at]

/-! ## The loss -/

/-- The difference of the two means is the shared `meanGap` of the three totals. -/
theorem v27_at (x : (⟨S16x512x768, .f32⟩ : BufTy).Contents (Elt Ideal)) (l : (⟨S16x512, .i32⟩ : BufTy).Contents (Elt Ideal))
    (i : S_.Idx) :
    val_main_v27 (F := Ideal) x l i
      = Cert.SupCon.meanGap (Cert.SupCon.sSim (xnOf x)) (Cert.SupCon.sMasked (xnOf x) (labOf l)) (Cert.SupCon.sPos (labOf l)) := by
  rw [val_main_v27_apply, val_main_v26_apply, val_main_v25_apply, val_main_v21_apply, val_main_v18_apply,
    val_main_cst_2_apply, v22_at, v24_at, v20_at, v17_at]
  simp only [Ideal.subf_def, Ideal.hostDivf_def, Ideal.ofBits_def, Cert.SupCon.ofBits_nPairs]
  rfl

/-- The reference's last stage is the shared loss formula of the three totals. -/
theorem val_main_v37_loss (x : (⟨S16x512x768, .f32⟩ : BufTy).Contents (Elt Ideal)) (l : (⟨S16x512, .i32⟩ : BufTy).Contents (Elt Ideal)) :
    val_main_v37 (F := Ideal) x l
      = fun _ => Cert.SupCon.lossOf (Cert.SupCon.sSim (xnOf x)) (Cert.SupCon.sMasked (xnOf x) (labOf l)) (Cert.SupCon.sPos (labOf l)) := by
  funext i
  rw [val_main_v37_apply, val_main_v30_apply, val_main_v31_apply, val_main_v36_apply, val_main_v28_apply,
    val_main_v35_apply, val_main_v34_apply, val_main_v33_apply, val_main_v32_apply, val_main_v29_apply,
    val_main_cst_6_apply, v27_at]
  simp only [Ideal.cmpf_def, Ideal.hostAbsf_def, Ideal.absf_def, Ideal.hostNegf_def, Ideal.negf_def,
    Ideal.hostUnary_exp_def, Ideal.hostUnary_log1p_def, Ideal.maximumf_def, Ideal.addf_def, Ideal.subf_def,
    Ideal.ofBits_def, Ideal.ofBits_zero_f32]
  rfl

/-- The reference run's result term, at the launch contents of its two arguments, is the loss of the three totals
    of its normalized matrix and labels. -/
theorem ref_value (m : (ℓ : Loc nD τ sig) → Buf (Elt Ideal) ℓ) (c : Dev nD) :
    Cert.ReferenceIdeal.Value.res_main_v37 (F := Ideal) m c
      = fun _ => Cert.SupCon.lossOf
          (Cert.SupCon.sSim (xnOf (m ((c.tc : Thread nD τ).loc main_arg0))))
          (Cert.SupCon.sMasked (xnOf (m ((c.tc : Thread nD τ).loc main_arg0))) (labOf (m ((c.tc : Thread nD τ).loc main_arg1))))
          (Cert.SupCon.sPos (labOf (m ((c.tc : Thread nD τ).loc main_arg1)))) :=
  (val_main_v37_eq (F := Ideal) m c).trans (val_main_v37_loss _ _)

end Cert.ReferenceIdeal.RefValue

end
-- ==== Proof.KerPrefix.lean ====
/-
  The kernel program's host operations before the call, read against the reference's.

  Before the kernel region is entered the host has computed, from the same two arguments, the
  normalized matrix (each row divided by its clamped norm, then a change of float format, which
  is the identity on the extended reals) and two reshapes of the label vector, as a column
  [8192,1] and as a row [1,8192]. Entry by entry these are the reference's normalized matrix and
  the reference's labels.
-/
import proofs.«157627_j59528246722684_2_alg».proof.Proof.FrameBase
import proofs.«157627_j59528246722684_2_alg».proof.Proof.RefValue
import Idealize.ShloMosaic.Lib.StableHlo.Run
import Idealize.ShloMosaic.Lib.ValueIdx
import Idealize.ShloMosaic.Lib.Pipeline.Value

noncomputable section

namespace Cert.KernelIdeal.PrefixValue

open Cert.KernelIdeal Cert.KernelIdeal.Gen Cert.KernelIdeal.Hand
open Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The buffers when the region is entered, as terms of the two arguments -/

set_option maxRecDepth 16384 in
set_option maxHeartbeats 2000000 in
/-- The matrix the region reads is the reference's normalized matrix of the same argument. -/
theorem v7_eq :
    (V (F := Ideal) m c main_v7 : S8192x768.Idx → EReal)
      = Cert.ReferenceIdeal.Read.val_main_v6 (F := Ideal) (m ((c.tc : Thread nD τ).loc main_arg0)) := by
  show StableHlo.after (hostOps0_2 (F := Ideal)) (StableHlo.after (hostOps0_1 (F := Ideal))
      (StableHlo.after (hostOps0 (F := Ideal)) (fun b => m (c, b)))) (Proc.devRef .tc main_v7) = _
  after_results_simp
  rfl

set_option maxRecDepth 16384 in
set_option maxHeartbeats 2000000 in
/-- The label column the region reads is a reshape of the reference's label vector. -/
theorem v8_eq :
    (V (F := Ideal) m c main_v8 : S8192x1.Idx → BitVec 32)
      = shapeCast S8192x1 (Cert.ReferenceIdeal.Read.val_main_v1 (F := Ideal) (m ((c.tc : Thread nD τ).loc main_arg1)))
          shapeCasts_S8192_S8192x1 := by
  show StableHlo.after (hostOps0_2 (F := Ideal)) (StableHlo.after (hostOps0_1 (F := Ideal))
      (StableHlo.after (hostOps0 (F := Ideal)) (fun b => m (c, b)))) (Proc.devRef .tc main_v8) = _
  after_results_simp
  rfl

set_option maxRecDepth 16384 in
set_option maxHeartbeats 2000000 in
/-- The label row the region reads is a reshape of the reference's label vector. -/
theorem v9_eq :
    (V (F := Ideal) m c main_v9 : S1x8192.Idx → BitVec 32)
      = shapeCast S1x8192 (Cert.ReferenceIdeal.Read.val_main_v1 (F := Ideal) (m ((c.tc : Thread nD τ).loc main_arg1)))
          shapeCasts_S8192_S1x8192 := by
  show StableHlo.after (hostOps0_2 (F := Ideal)) (StableHlo.after (hostOps0_1 (F := Ideal))
      (StableHlo.after (hostOps0 (F := Ideal)) (fun b => m (c, b)))) (Proc.devRef .tc main_v9) = _
  after_results_simp
  rfl

/-! ## Entry by entry -/

/-- Row `P`, entry `k` of the matrix the region reads is the reference's normalized entry. -/
theorem kerXn (P : Fin 8192) (k : Fin 768) :
    V (F := Ideal) m c main_v7 (ix2 P k)
      = Cert.ReferenceIdeal.RefValue.xnOf (m ((c.tc : Thread nD τ).loc main_arg0)) P k :=
  congrFun (v7_eq m c) (ix2 P k)

/-- Entry `P` of the label column is the reference's label of row `P`. -/
theorem kerLabCol (P : Fin 8192) :
    V (F := Ideal) m c main_v8 (ix2 P (0 : Fin 1))
      = Cert.ReferenceIdeal.RefValue.labOf (m ((c.tc : Thread nD τ).loc main_arg1)) P :=
  (congrFun (v8_eq m c) (ix2 P (0 : Fin 1))).trans
    (shapeCast_apply _ shapeCasts_S8192_S8192x1 (ix2 P (0 : Fin 1)) (ix1 P) (by
      rw [Shape.rowMajor_val_one, Shape.rowMajor_val_two]
      show P.val = P.val * 1 + 0
      omega))

/-- Entry `Q` of the label row is the reference's label of row `Q`. -/
theorem kerLabRow (Q : Fin 8192) :
    V (F := Ideal) m c main_v9 (ix2 (0 : Fin 1) Q)
      = Cert.ReferenceIdeal.RefValue.labOf (m ((c.tc : Thread nD τ).loc main_arg1)) Q :=
  (congrFun (v9_eq m c) (ix2 (0 : Fin 1) Q)).trans
    (shapeCast_apply _ shapeCasts_S8192_S1x8192 (ix2 (0 : Fin 1) Q) (ix1 Q) (by
      rw [Shape.rowMajor_val_one, Shape.rowMajor_val_two]
      show Q.val = 0 * 8192 + Q.val
      omega))

/-! ## The same three facts as functions -/

/-- The matrix the region reads, by rows and entries, is the reference's normalized matrix. -/
theorem kerXn_fun :
    (fun (P : Fin 8192) (k : Fin 768) => V (F := Ideal) m c main_v7 (ix2 P k))
      = Cert.ReferenceIdeal.RefValue.xnOf (m ((c.tc : Thread nD τ).loc main_arg0)) :=
  funext fun P => funext fun k => kerXn m c P k

/-- The label column, by rows, is the reference's labels. -/
theorem kerLabCol_fun :
    (fun (P : Fin 8192) => V (F := Ideal) m c main_v8 (ix2 P (0 : Fin 1)))
      = Cert.ReferenceIdeal.RefValue.labOf (m ((c.tc : Thread nD τ).loc main_arg1)) :=
  funext fun P => kerLabCol m c P

/-- The label row, by columns, is the reference's labels. -/
theorem kerLabRow_fun :
    (fun (Q : Fin 8192) => V (F := Ideal) m c main_v9 (ix2 (0 : Fin 1) Q))
      = Cert.ReferenceIdeal.RefValue.labOf (m ((c.tc : Thread nD τ).loc main_arg1)) :=
  funext fun Q => kerLabRow m c Q

end Cert.KernelIdeal.PrefixValue

end
-- ==== Proof.KerPieces.lean ====
/-
  What one run of the kernel body leaves in each accumulator, as a value.

  Each accumulator is a one-entry buffer. At a point that adds, the body's one store into it
  covers it, so the buffer ends with that store's value: the update applied to the tiles read
  and to what the buffer held. At a point that resets, the body first stores the zero value and
  then stores the update, whose "previous contents" are read back from the buffer after the
  zero store: so the buffer ends with the update applied to the zero value.
-/
import proofs.«157627_j59528246722684_2_alg».proof.Proof.FrameData
import Idealize.ShloMosaic.Lib.ValueLayout
import Idealize.ShloMosaic.Lib.Tactic

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)
open scoped BigOperators

variable {F : FTy → Type} [FloatOps F] [Named F]

/-- The accumulators' stores and loads start at the origin of their one-entry buffer. -/
theorem hz : (![0, 0, 0] : Fin 3 → Nat) = fun _ => 0 := funext fun a => by fin_cases a <;> rfl
/-- The tiles' loads start at the origin of their buffers. -/
theorem hz2 : (![0, 0] : Fin 2 → Nat) = fun _ => 0 := funext fun a => by fin_cases a <;> rfl

/-- At a point that adds, the first accumulator ends with its update applied to what it held. -/
theorem outB4_eq (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 xo5 xo6 : Vec F S1x1x1 .f32) :
    outB4 c i arg2 harg2 arg3 harg3 arg4 harg4 arg5 harg5 arg6 harg6 arg7 harg7 arg8 harg8 hc0 x0 x1 x2 x3 xo4 xo5 xo6 = k0_pay8 x0 x1 xo4 := by
  unfold outB4
  rw [View.read_writes_eq_canon _ _ _ (coverB4 c i arg2 harg2 arg3 harg3 arg4 harg4 arg5 harg5 arg6 harg6 arg7 harg7 arg8 harg8 hc0 x0 x1 x2 x3 xo4 xo5 xo6)]
  unfold kernelRunB
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S4096x768) hz2, View.ld_unit_zero (S := S2048x768) hz2, View.ld_unit_zero (S := S4096x1) hz2, View.ld_unit_zero (S := S1x2048) hz2, View.ld_unit_zero (S := S1x1x1) hz]

/-- At a point that adds, the second accumulator ends with its update applied to what it held. -/
theorem outB5_eq (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 xo5 xo6 : Vec F S1x1x1 .f32) :
    outB5 c i arg2 harg2 arg3 harg3 arg4 harg4 arg5 harg5 arg6 harg6 arg7 harg7 arg8 harg8 hc0 x0 x1 x2 x3 xo4 xo5 xo6 = k0_pay1 (k0_pay9 xo5) (k0_pay10 x0 x1 x2 x3) := by
  unfold outB5
  rw [View.read_writes_eq_canon _ _ _ (coverB5 c i arg2 harg2 arg3 harg3 arg4 harg4 arg5 harg5 arg6 harg6 arg7 harg7 arg8 harg8 hc0 x0 x1 x2 x3 xo4 xo5 xo6)]
  unfold kernelRunB
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S4096x768) hz2, View.ld_unit_zero (S := S2048x768) hz2, View.ld_unit_zero (S := S4096x1) hz2, View.ld_unit_zero (S := S1x2048) hz2, View.ld_unit_zero (S := S1x1x1) hz]

/-- At a point that adds, the third accumulator ends with its update applied to what it held. -/
theorem outB6_eq (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0 i)
    (x0 : Vec F S4096x768 .bf16) (x1 : Vec F S2048x768 .bf16) (x2 : Vec F S4096x1 .i32) (x3 : Vec F S1x2048 .i32) (xo4 xo5 xo6 : Vec F S1x1x1 .f32) :
    outB6 c i arg2 harg2 arg3 harg3 arg4 harg4 arg5 harg5 arg6 harg6 arg7 harg7 arg8 harg8 hc0 x0 x1 x2 x3 xo4 xo5 xo6 = k0_pay2 (k0_pay7 x2 x3) xo6 := by
  unfold outB6
  rw [View.read_writes_eq_canon _ _ _ (coverB6 c i arg2 harg2 arg3 harg3 arg4 harg4 arg5 harg5 arg6 harg6 arg7 harg7 arg8 harg8 hc0 x0 x1 x2 x3 xo4 xo5 xo6)]
  unfold kernelRunB
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S4096x768) hz2, View.ld_unit_zero (S := S2048x768) hz2, View.ld_unit_zero (S := S4096x1) hz2, View.ld_unit_zero (S := S1x2048) hz2, View.ld_unit_zero (S := S1x1x1) hz]

/-- At a point that resets, the first accumulator ends with its update applied to the reset value: the zero stored first is what the update reads. -/
theorem outA4_eq (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) :
    outA4 c i arg2 harg2 arg3 harg3 arg4 harg4 arg5 harg5 arg6 harg6 arg7 harg7 arg8 harg8 hc0 x0 x1 x2 x3 = k0_pay8 x0 x1 (k0_pay3 (F := F)) := by
  unfold outA4
  rw [View.read_writes_eq_canon _ _ _ (coverA4 c i arg2 harg2 arg3 harg3 arg4 harg4 arg5 harg5 arg6 harg6 arg7 harg7 arg8 harg8 hc0 x0 x1 x2 x3)]
  unfold kernelRunA
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread,
    View.ld_unit_zero (S := S4096x768) hz2, View.ld_unit_zero (S := S2048x768) hz2, View.ld_unit_zero (S := S4096x1) hz2, View.ld_unit_zero (S := S1x2048) hz2, View.ld_unit_zero (S := S1x1x1) hz]

/-- At a point that resets, the second accumulator ends with its update applied to the reset value. -/
theorem outA5_eq (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) :
    outA5 c i arg2 harg2 arg3 harg3 arg4 harg4 arg5 harg5 arg6 harg6 arg7 harg7 arg8 harg8 hc0 x0 x1 x2 x3 = k0_pay1 (k0_pay9 (k0_pay4 (F := F))) (k0_pay10 x0 x1 x2 x3) := by
  unfold outA5
  rw [View.read_writes_eq_canon _ _ _ (coverA5 c i arg2 harg2 arg3 harg3 arg4 harg4 arg5 harg5 arg6 harg6 arg7 harg7 arg8 harg8 hc0 x0 x1 x2 x3)]
  unfold kernelRunA
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread,
    View.ld_unit_zero (S := S4096x768) hz2, View.ld_unit_zero (S := S2048x768) hz2, View.ld_unit_zero (S := S4096x1) hz2, View.ld_unit_zero (S := S1x2048) hz2, View.ld_unit_zero (S := S1x1x1) hz]

/-- At a point that resets, the third accumulator ends with its update applied to the reset value. -/
theorem outA6_eq (c : Dev nD) (i : grid0.Coords) (arg2 : Memref sig .tc .vmem S4096x768 .bf16) (harg2 : arg2.IsWhole) (arg3 : Memref sig .tc .vmem S2048x768 .bf16) (harg3 : arg3.IsWhole) (arg4 : Memref sig .tc .vmem S4096x1 .i32) (harg4 : arg4.IsWhole) (arg5 : Memref sig .tc .vmem S1x2048 .i32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0 i)
    (x0 : Vec F S4096x768 .bf16) (x1 : Vec F S2048x768 .bf16) (x2 : Vec F S4096x1 .i32) (x3 : Vec F S1x2048 .i32) :
    outA6 c i arg2 harg2 arg3 harg3 arg4 harg4 arg5 harg5 arg6 harg6 arg7 harg7 arg8 harg8 hc0 x0 x1 x2 x3 = k0_pay2 (k0_pay7 x2 x3) (k0_pay5 (F := F)) := by
  unfold outA6
  rw [View.read_writes_eq_canon _ _ _ (coverA6 c i arg2 harg2 arg3 harg3 arg4 harg4 arg5 harg5 arg6 harg6 arg7 harg7 arg8 harg8 hc0 x0 x1 x2 x3)]
  unfold kernelRunA
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread,
    View.ld_unit_zero (S := S4096x768) hz2, View.ld_unit_zero (S := S2048x768) hz2, View.ld_unit_zero (S := S4096x1) hz2, View.ld_unit_zero (S := S1x2048) hz2, View.ld_unit_zero (S := S1x1x1) hz]

end Cert.KernelIdeal.KerValue

end
-- ==== Proof.PayMat.lean ====
/-
  The matrix part of the kernel body, read at an index.

  For a tile `a` of 4096 rows and a tile `b` of 2048 rows (768 entries each) the body forms
  `(a · bᵀ) * c`: entry `(p, q)` is the inner product of row `p` of `a` with row `q` of `b`
  (both operands are contracted on their second axis), times the named constant `c`, which at the
  extended reals is the rational `134217728 / 9395241`.
-/
import proofs.«157627_j59528246722684_2_alg».proof.Proof.Gen.KernelIdeal.Skeleton
import proofs.«157627_j59528246722684_2_alg».proof.Proof.Spec
import Idealize.ShloMosaic.Lib.ValueLayout
import Idealize.ShloMosaic.PureOps.Ideal.Laws

noncomputable section

namespace Cert.KernelIdeal.PayValue

open Idealize.ShloMosaic Idealize.ShloMosaic.ValueIdx Idealize.SL.Sem
open Cert.KernelIdeal Cert.KernelIdeal.Gen
open scoped BigOperators

/-- The named scale is, at the extended reals, the rational the specification calls `invT`. -/
theorem inv_temperature :
    Named.named (F := Ideal) Cert.KernelIdeal.κ "inv_temperature" (φ := .f32) 0x41649249#32 = Cert.SupCon.invT :=
  IdealRules.named_const.ideal_named_scalar _ _ _ _ rfl

/-- The left operand's index at output `(p, q)`: its row is `p`. -/
theorem lhs_row (i : S4096x2048.Idx) (k : dot_S4096x768_S2048x768_S4096x2048_1_1_0_0_n_n.contr.Idx) :
    (dot_S4096x768_S2048x768_S4096x2048_1_1_0_0_n_n.lhsIdx i k 0).val = (i 0).val := by
  unfold DotDims.lhsIdx
  rw [dif_neg (show ¬(0 : Fin S4096x768.rank) ∈ dot_S4096x768_S2048x768_S4096x2048_1_1_0_0_n_n.lhsBatch by decide),
    dif_pos (show (0 : Fin S4096x768.rank) ∈ dot_S4096x768_S2048x768_S4096x2048_1_1_0_0_n_n.lhsNonContracting by decide)]
  rfl

/-- The right operand's index at output `(p, q)`: its row is `q`. -/
theorem rhs_row (i : S4096x2048.Idx) (k : dot_S4096x768_S2048x768_S4096x2048_1_1_0_0_n_n.contr.Idx) :
    (dot_S4096x768_S2048x768_S4096x2048_1_1_0_0_n_n.rhsIdx i k 0).val = (i 1).val := by
  unfold DotDims.rhsIdx
  rw [dif_neg (show ¬(0 : Fin S2048x768.rank) ∈ dot_S4096x768_S2048x768_S4096x2048_1_1_0_0_n_n.rhsBatch by decide),
    dif_pos (show (0 : Fin S2048x768.rank) ∈ dot_S4096x768_S2048x768_S4096x2048_1_1_0_0_n_n.rhsNonContracting by decide)]
  rfl

/-- The product into a zero accumulator, at `(p, q)`: the inner product of row `p` of `a` and row `q` of `b`. -/
theorem matmul_apply_ix (a : FVec Ideal S4096x768 .bf16) (b : FVec Ideal S2048x768 .bf16) (p : Fin 4096) (q : Fin 2048) :
    matmul dot_S4096x768_S2048x768_S4096x2048_1_1_0_0_n_n none a b (constant (F := Ideal) S4096x2048 .f32 0x00000000#32) (ix2 p q)
      = ∑ k : Fin 768, a (ix2 p k) * b (ix2 q k) := by
  simp only [matmul]
  rw [Ideal.matmul_constant_zero_apply,
    ← Equiv.sum_comp (contrEquiv1 dot_S4096x768_S2048x768_S4096x2048_1_1_0_0_n_n 768 rfl rfl).symm]
  refine Finset.sum_congr rfl fun k _ => ?_
  have hk := contrEquiv1_symm_val dot_S4096x768_S2048x768_S4096x2048_1_1_0_0_n_n 768 rfl rfl k
  have el : dot_S4096x768_S2048x768_S4096x2048_1_1_0_0_n_n.lhsIdx (ix2 p q)
      ((contrEquiv1 dot_S4096x768_S2048x768_S4096x2048_1_1_0_0_n_n 768 rfl rfl).symm k) = ix2 p k :=
    funext fun ax => Fin.ext (by
      match ax with
      | ⟨0, _⟩ => exact lhs_row _ _
      | ⟨1, _⟩ => exact (dot_S4096x768_S2048x768_S4096x2048_1_1_0_0_n_n.lhsIdx_val_of_single rfl _ _).trans hk)
  have er : dot_S4096x768_S2048x768_S4096x2048_1_1_0_0_n_n.rhsIdx (ix2 p q)
      ((contrEquiv1 dot_S4096x768_S2048x768_S4096x2048_1_1_0_0_n_n 768 rfl rfl).symm k) = ix2 q k :=
    funext fun ax => Fin.ext (by
      match ax with
      | ⟨0, _⟩ => exact rhs_row _ _
      | ⟨1, _⟩ => exact (dot_S4096x768_S2048x768_S4096x2048_1_1_0_0_n_n.rhsIdx_val_of_single rfl _ _).trans hk)
  rw [el, er]

/-- The scaled similarity tile at `(p, q)`. -/
theorem pay6_apply (a : Vec Ideal S4096x768 .bf16) (b : Vec Ideal S2048x768 .bf16) (p : Fin 4096) (q : Fin 2048) :
    k0_pay6 (F := Ideal) a b (ix2 p q) = (∑ k : Fin 768, a (ix2 p k) * b (ix2 q k)) * Cert.SupCon.invT := by
  unfold k0_pay6
  rw [shapeCast_self, shapeCast_self, mulf_apply, broadcast_apply, inv_temperature]
  exact congrArg (· * Cert.SupCon.invT) (matmul_apply_ix a b p q)

end Cert.KernelIdeal.PayValue

end
-- ==== Proof.PayMask.lean ====
/-
  The label mask of the kernel body, read at an index.

  The body compares the label of row `p` of the first tile (a column of 4096 labels) with the label
  of row `q` of the second tile (a row of 2048 labels): the column and the row are each repeated to
  4096 × 2048, compared entry by entry, and the one-bit answer is widened and converted to a number.
  So entry `(p, q)` of the mask is 1 when the two labels are equal and 0 otherwise.
-/
import proofs.«157627_j59528246722684_2_alg».proof.Proof.Gen.KernelIdeal.Skeleton
import Idealize.ShloMosaic.Lib.ValueLayout

noncomputable section

namespace Cert.KernelIdeal.PayValue

open Idealize.ShloMosaic Idealize.ShloMosaic.ValueIdx Idealize.SL.Sem
open Cert.KernelIdeal Cert.KernelIdeal.Gen
open scoped BigOperators

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-bit answer of an equality test, widened to 32 bits and read as a signed integer, is the
    number 1 when the two words are equal and 0 when they are not. -/
theorem sitofp_cmpi_eq (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  by_cases h : x = y
  · have e : (IntOp.cmpi .eq x y).setWidth 32 = 1#32 := by simp [IntOp.cmpi, h]
    have t : (1#32 : BitVec 32).toInt = 1 := by decide
    rw [e, if_pos h, t]; simp
  · have hb : (x == y) = false := beq_eq_false_iff_ne.mpr h
    have e : (IntOp.cmpi .eq x y).setWidth 32 = 0#32 := by
      show (BitVec.ofBool (x == y)).setWidth 32 = 0#32
      rw [hb]; decide
    have t : (0#32 : BitVec 32).toInt = 0 := by decide
    rw [e, if_neg h, t]; simp

/-- The mask tile at `(p, q)`: 1 when label `p` of the column equals label `q` of the row, else 0. -/
theorem pay7_apply (li : Vec Ideal S4096x1 .i32) (lj : Vec Ideal S1x2048 .i32) (p : Fin 4096) (q : Fin 2048) :
    k0_pay7 (F := Ideal) li lj (ix2 p q)
      = if li (ix2 p (0 : Fin 1)) = lj (ix2 (0 : Fin 1) q) then (1 : EReal) else 0 := by
  unfold k0_pay7
  rw [shapeCast_self, shapeCast_self, sitofp_apply, extui_apply]
  show FloatOps.sitofp (F := Ideal) .f32 ((IntOp.cmpi .eq
      (broadcastTo S4096x2048 li broadcasts_S4096x1_S4096x2048 (ix2 p q))
      (broadcastTo S4096x2048 lj broadcasts_S1x2048_S4096x2048 (ix2 p q))).setWidth 32) = _
  rw [broadcastTo_a1_ab_apply, broadcastTo_1b_ab_apply]
  exact sitofp_cmpi_eq _ _

end Cert.KernelIdeal.PayValue

end
-- ==== Proof.PayValue.lean ====
/-
  The kernel body's three accumulator updates, read at the accumulator's one index.

  Each update adds to the accumulator's previous contents the sum, over the 4096 × 2048 entries of
  the tile, of one of three tiles: the scaled similarities, the scaled similarities times the label
  mask, and the label mask. The body sums a tile by viewing it as `[1, 4096, 2048]`, reducing the two
  long axes into the one-entry vector `[1]`, viewing that as `[1, 1, 1]`, taking its entry and
  spreading it over `[1, 1, 1]` again. A sum into a shape whose axes all have extent one is the sum
  over every entry of the source; the entries of `[1, 4096, 2048]` are `(0, p, q)`, so that sum is
  the double sum over `p` and `q` of the tile. The reset values are the zero word, which is 0.
-/
import proofs.«157627_j59528246722684_2_alg».proof.Proof.PayMat
import proofs.«157627_j59528246722684_2_alg».proof.Proof.PayMask

noncomputable section

namespace Cert.KernelIdeal.PayValue

open Idealize.ShloMosaic Idealize.ShloMosaic.ValueIdx Idealize.SL.Sem
open Cert.KernelIdeal Cert.KernelIdeal.Gen
open scoped BigOperators

/-- The indices of a `[1, n1, n2]` array are the pairs of its last two coordinates … -/
def idxEquiv3u {n1 n2 : Nat} : (⟨3, ![1, n1, n2]⟩ : Shape).Idx ≃ Fin n1 × Fin n2 where
  toFun i := (i 1, i 2)
  invFun p := ix3 (0 : Fin 1) p.1 p.2
  left_inv i := by
    have h0 : (i 0).val = 0 := by have := (i 0).isLt; simp at this; omega
    funext a
    match a with
    | ⟨0, _⟩ => exact Fin.ext h0.symm
    | ⟨1, _⟩ => rfl
    | ⟨2, _⟩ => rfl
  right_inv _ := rfl

/-- … so a sum over them is the double sum over those two coordinates. -/
theorem sum_idx3u {M : Type*} [AddCommMonoid M] {n1 n2 : Nat} (f : (⟨3, ![1, n1, n2]⟩ : Shape).Idx → M) :
    ∑ i, f i = ∑ b : Fin n1, ∑ c : Fin n2, f (ix3 (0 : Fin 1) b c) := by
  rw [← Equiv.sum_comp (idxEquiv3u (n1 := n1) (n2 := n2)).symm f, Fintype.sum_prod_type]
  rfl

/-- The sum of a 4096 × 2048 tile as the body takes it: viewed as `[1, 4096, 2048]` and reduced over
    its two long axes into `[1]`, it is the double sum of the tile's entries. -/
theorem lane_sum (v : FVec Ideal S4096x2048 .f32) (j : S1.Idx) :
    multiReduction (F := Ideal) .add [1, 2] S1
        (shapeCast S1x4096x2048 v shapeCasts_S4096x2048_S1x4096x2048) 0x00000000#32
        reduces_S1x4096x2048_S1 (.inl rfl) rfl j
      = ∑ p : Fin 4096, ∑ q : Fin 2048, v (ix2 p q) := by
  refine (Ideal.multiReduction_add_total _ _ reduces_S1x4096x2048_S1 (by decide) _ _ j).trans ?_
  rw [sum_idx3u]
  refine Finset.sum_congr rfl fun p _ => Finset.sum_congr rfl fun q _ => ?_
  exact shapeCast_ab_1ab_apply v _ 0 p q

/-- A one-entry vector viewed as `[1, 1, 1]`, its entry taken and spread over `[1, 1, 1]`: everywhere that entry. -/
theorem splat_apply (v : FVec Ideal S1 .f32) (j0 : S1x1x1.Idx) :
    broadcast S1x1x1 (extractAt ![0, 0, 0] (shapeCast S1x1x1 v shapeCasts_S1_S1x1x1) inpos_S1x1x1_p0_0_0) j0
      = v (ix1 (0 : Fin 1)) := by
  rw [broadcast_apply]
  unfold extractAt
  exact shapeCast_apply v _ _ _ (by rw [Shape.rowMajor_val_one, Shape.rowMajor_val_three]; rfl)

/-- The first accumulator's update: its previous contents plus the sum of the tile's scaled similarities. -/
theorem pay8_apply (a : Vec Ideal S4096x768 .bf16) (b : Vec Ideal S2048x768 .bf16) (prev : Vec Ideal S1x1x1 .f32)
    (j0 : S1x1x1.Idx) :
    k0_pay8 (F := Ideal) a b prev j0
      = prev j0 + ∑ p : Fin 4096, ∑ q : Fin 2048, (∑ k : Fin 768, a (ix2 p k) * b (ix2 q k)) * Cert.SupCon.invT := by
  unfold k0_pay8
  rw [addf_apply, shapeCast_self]
  refine congrArg (prev j0 + ·) ?_
  refine (splat_apply _ j0).trans ((lane_sum _ _).trans ?_)
  exact Finset.sum_congr rfl fun p _ => Finset.sum_congr rfl fun q _ => pay6_apply a b p q

/-- The second accumulator's update: its previous contents plus the sum of the tile's scaled similarities
    over the pairs whose labels agree (each similarity times the mask's 1 or 0). -/
theorem pay1_apply (a : Vec Ideal S4096x768 .bf16) (b : Vec Ideal S2048x768 .bf16)
    (li : Vec Ideal S4096x1 .i32) (lj : Vec Ideal S1x2048 .i32) (prev : Vec Ideal S1x1x1 .f32) (j0 : S1x1x1.Idx) :
    k0_pay1 (F := Ideal) (k0_pay9 prev) (k0_pay10 a b li lj) j0
      = prev j0 + ∑ p : Fin 4096, ∑ q : Fin 2048,
          ((∑ k : Fin 768, a (ix2 p k) * b (ix2 q k)) * Cert.SupCon.invT)
            * (if li (ix2 p (0 : Fin 1)) = lj (ix2 (0 : Fin 1) q) then (1 : EReal) else 0) := by
  unfold k0_pay1 k0_pay9 k0_pay10
  rw [addf_apply, shapeCast_self]
  refine congrArg (prev j0 + ·) ?_
  refine (splat_apply _ j0).trans ((lane_sum _ _).trans ?_)
  refine Finset.sum_congr rfl fun p _ => Finset.sum_congr rfl fun q _ => ?_
  rw [mulf_apply, pay6_apply, pay7_apply]

/-- The third accumulator's update: its previous contents plus the number of pairs of the tile whose labels agree. -/
theorem pay2_apply (li : Vec Ideal S4096x1 .i32) (lj : Vec Ideal S1x2048 .i32) (prev : Vec Ideal S1x1x1 .f32)
    (j0 : S1x1x1.Idx) :
    k0_pay2 (F := Ideal) (k0_pay7 li lj) prev j0
      = prev j0 + ∑ p : Fin 4096, ∑ q : Fin 2048,
          (if li (ix2 p (0 : Fin 1)) = lj (ix2 (0 : Fin 1) q) then (1 : EReal) else 0) := by
  unfold k0_pay2
  rw [addf_apply, shapeCast_self]
  refine congrArg (prev j0 + ·) ?_
  refine (splat_apply _ j0).trans ((lane_sum _ _).trans ?_)
  exact Finset.sum_congr rfl fun p _ => Finset.sum_congr rfl fun q _ => pay7_apply li lj p q

/-- The reset value of the first accumulator is 0. -/
theorem pay3_apply (j0 : S1x1x1.Idx) : k0_pay3 (F := Ideal) j0 = 0 := by
  unfold k0_pay3
  rw [broadcast_apply]
  exact Ideal.ofBits_zero_f32

/-- The reset value of the second accumulator is 0. -/
theorem pay4_apply (j0 : S1x1x1.Idx) : k0_pay4 (F := Ideal) j0 = 0 := by
  unfold k0_pay4
  rw [broadcast_apply]
  exact Ideal.ofBits_zero_f32

/-- The reset value of the third accumulator is 0. -/
theorem pay5_apply (j0 : S1x1x1.Idx) : k0_pay5 (F := Ideal) j0 = 0 := by
  unfold k0_pay5
  rw [broadcast_apply]
  exact Ideal.ofBits_zero_f32

end Cert.KernelIdeal.PayValue

end
-- ==== Proof.Regroup.lean ====
/-
  Regrouping a double sum over 8192 × 8192 pairs into tiles.

  The rows 0 … 8191 are cut into 2 blocks of 4096 and, independently, into 4 blocks of 2048: row
  `P` is `4096 * i + p` for exactly one block number `i` and one offset `p` inside the block, and
  likewise `Q = 2048 * j + q`. Summing over all `(i, j, p, q)` therefore visits every pair `(P, Q)`
  exactly once. In a commutative additive monoid (the extended reals are one) the order of a finite
  sum is free, so the sum over the tiles of the sums inside each tile is the sum over all pairs.
-/
import Mathlib.Algebra.BigOperators.Fin
import Mathlib.Algebra.BigOperators.Group.Finset.Basic
import Mathlib.Logic.Equiv.Fin.Basic

namespace Cert.SupCon

open scoped BigOperators

/-- Offset `p` of block `i`, of `n` blocks of `m`, is a position below `n * m`. -/
theorem block_lt {n m : ℕ} (i : Fin n) (p : Fin m) : m * i.val + p.val < n * m :=
  calc m * i.val + p.val < m * i.val + m := Nat.add_lt_add_left p.isLt _
    _ = m * (i.val + 1) := (Nat.mul_succ m i.val).symm
    _ ≤ m * n := Nat.mul_le_mul_left m i.isLt
    _ = n * m := Nat.mul_comm m n

/-- A sum over `N = n * m` positions, block by block: position `m * i + p` is offset `p` of block `i`,
    and every position is of that form exactly once. -/
theorem sum_blocks {M : Type*} [AddCommMonoid M] {n m N : ℕ} (h : n * m = N) (g : Fin N → M) :
    ∑ i : Fin n, ∑ p : Fin m, g ⟨m * i.val + p.val, h ▸ block_lt i p⟩ = ∑ P : Fin N, g P := by
  subst h
  rw [← Equiv.sum_comp finProdFinEquiv g, Fintype.sum_prod_type]
  refine Finset.sum_congr rfl fun i _ => Finset.sum_congr rfl fun p _ => ?_
  exact congrArg g (Fin.ext (Nat.add_comm _ _))

/-- The sum over the 2 × 4 tiles of the sums over each tile's 4096 × 2048 pairs is the sum over all
    8192 × 8192 pairs: tile `(i, j)` holds the rows `4096 * i + p` against the rows `2048 * j + q`. -/
theorem sum_tiles {M : Type*} [AddCommMonoid M] (f : Fin 8192 → Fin 8192 → M) :
    ∑ i : Fin 2, ∑ j : Fin 4, ∑ p : Fin 4096, ∑ q : Fin 2048,
        f ⟨4096 * i.val + p.val, by omega⟩ ⟨2048 * j.val + q.val, by omega⟩
      = ∑ P : Fin 8192, ∑ Q : Fin 8192, f P Q := by
  refine Eq.trans ?_ (sum_blocks (n := 2) (m := 4096) (N := 8192) rfl (fun P => ∑ Q : Fin 8192, f P Q))
  refine Finset.sum_congr rfl fun i _ => ?_
  rw [Finset.sum_comm]
  refine Finset.sum_congr rfl fun p _ => ?_
  exact sum_blocks (n := 4) (m := 2048) (N := 8192) rfl (fun Q => f ⟨4096 * i.val + p.val, by omega⟩ Q)

/-- Four terms added one after another onto zero are their sum. -/
theorem fold_four {M : Type*} [AddCommMonoid M] (s : Fin 4 → M) :
    (((0 + s 0) + s 1) + s 2) + s 3 = ∑ j : Fin 4, s j := by
  rw [Fin.sum_univ_four, zero_add]

/-- Two terms added one after another onto zero are their sum. -/
theorem fold_two {M : Type*} [AddCommMonoid M] (s : Fin 2 → M) :
    (0 + s 0) + s 1 = ∑ i : Fin 2, s i := by
  rw [Fin.sum_univ_two, zero_add]

end Cert.SupCon
-- ==== Proof.KerAccum.lean ====
/-
  What the three accumulators hold after the last point of a row of the grid.

  A point's three tile totals are: the sum over its 4096 × 2048 pairs of the scaled inner
  products of the rows of its two matrix tiles; the same sum restricted to the pairs whose
  labels agree (each term times the mask's 1 or 0); and the number of such pairs. At the
  first point of a row the accumulators are reset and then receive that point's totals, so
  they hold `0 + T`; at each later point they receive that point's totals on top of what
  they held. After the fourth point of a row they therefore hold
  `(((0 + T₀) + T₁) + T₂) + T₃`, which in the extended reals is the sum of the row's four
  totals. The three accumulators are carried together as a triple, added entry by entry.
-/
import proofs.«157627_j59528246722684_2_alg».proof.Proof.KerPieces
import proofs.«157627_j59528246722684_2_alg».proof.Proof.PayValue
import proofs.«157627_j59528246722684_2_alg».proof.Proof.Regroup
import Idealize.ShloMosaic.Lib.ValueLayout
import Idealize.ShloMosaic.Lib.Tactic

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)
open scoped BigOperators

open Cert.KernelIdeal.PayValue

variable (m : (ℓ : Loc nD τ sig) → Buf (Elt Ideal) ℓ)

/-! ## The totals of a pair of tiles -/

/-- The sum of the scaled similarities of a 4096-row tile against a 2048-row tile. -/
def tile1 (a : Vec Ideal S4096x768 .bf16) (b : Vec Ideal S2048x768 .bf16) : EReal :=
  ∑ p : Fin 4096, ∑ q : Fin 2048, (∑ k : Fin 768, a (ix2 p k) * b (ix2 q k)) * Cert.SupCon.invT

/-- The same sum over the pairs whose labels agree. -/
def tile2 (a : Vec Ideal S4096x768 .bf16) (b : Vec Ideal S2048x768 .bf16)
    (li : Vec Ideal S4096x1 .i32) (lj : Vec Ideal S1x2048 .i32) : EReal :=
  ∑ p : Fin 4096, ∑ q : Fin 2048, ((∑ k : Fin 768, a (ix2 p k) * b (ix2 q k)) * Cert.SupCon.invT)
    * (if li (ix2 p (0 : Fin 1)) = lj (ix2 (0 : Fin 1) q) then (1 : EReal) else 0)

/-- The number of pairs whose labels agree. -/
def tile3 (li : Vec Ideal S4096x1 .i32) (lj : Vec Ideal S1x2048 .i32) : EReal :=
  ∑ p : Fin 4096, ∑ q : Fin 2048, (if li (ix2 p (0 : Fin 1)) = lj (ix2 (0 : Fin 1) q) then (1 : EReal) else 0)

/-! ## The totals of a grid point -/

/-- The first total of point `t`: of its two matrix tiles. -/
def T1 (c : Dev nD) (t : Fin cfg0.N) : EReal := tile1 (iblk m c 0 t) (iblk m c 1 t)
/-- The second total of point `t`: of its matrix tiles and its label tiles. -/
def T2 (c : Dev nD) (t : Fin cfg0.N) : EReal := tile2 (iblk m c 0 t) (iblk m c 1 t) (iblk m c 2 t) (iblk m c 3 t)
/-- The third total of point `t`: of its label tiles. -/
def T3 (c : Dev nD) (t : Fin cfg0.N) : EReal := tile3 (iblk m c 2 t) (iblk m c 3 t)
/-- The three totals of point `t` together. -/
def T (c : Dev nD) (t : Fin cfg0.N) : EReal × EReal × EReal := (T1 m c t, T2 m c t, T3 m c t)

/-- The three accumulators' entries after position `n`, together. -/
def acc (c : Dev nD) (n : ℕ) (h : n < cfg0.N) (j0 : S1x1x1.Idx) : EReal × EReal × EReal :=
  ((outsAt m c n h).1 j0, (outsAt m c n h).2.1 j0, (outsAt m c n h).2.2 j0)

/-- After a point that resets, the accumulators hold that point's totals added to zero. -/
theorem acc_reset (c : Dev nD) (t : Fin cfg0.N) (h0 : t.val % 4 = 0) (j0 : S1x1x1.Idx) :
    acc m c t.val t.isLt j0 = 0 + T m c t := by
  unfold acc
  rw [outsAt_A m c t h0]
  unfold outsA
  dsimp only
  refine Prod.ext ?_ (Prod.ext ?_ ?_)
  · refine (congrFun (outA4_eq (F := Ideal) c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t)) j0).trans ?_
    refine (pay8_apply (iblk m c 0 t) (iblk m c 1 t) (k0_pay3 (F := Ideal)) j0).trans ?_
    exact congrArg (· + tile1 (iblk m c 0 t) (iblk m c 1 t)) (pay3_apply j0)
  · refine (congrFun (outA5_eq (F := Ideal) c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t)) j0).trans ?_
    refine (pay1_apply (iblk m c 0 t) (iblk m c 1 t) (iblk m c 2 t) (iblk m c 3 t) (k0_pay4 (F := Ideal)) j0).trans ?_
    exact congrArg (· + tile2 (iblk m c 0 t) (iblk m c 1 t) (iblk m c 2 t) (iblk m c 3 t)) (pay4_apply j0)
  · refine (congrFun (outA6_eq (F := Ideal) c (grid0.coords t) (ms0 t) (hs0 t) (ms1 t) (hs1 t) (ms2 t) (hs2 t) (ms3 t) (hs3 t) (ms4 t) (hs4 t) (ms5 t) (hs5 t) (ms6 t) (hs6 t) ((hcond0 t).mpr h0) (iblk m c 0 t) (iblk m c 1 t) (iblk m c 2 t) (iblk m c 3 t)) j0).trans ?_
    refine (pay2_apply (iblk m c 2 t) (iblk m c 3 t) (k0_pay5 (F := Ideal)) j0).trans ?_
    exact congrArg (· + tile3 (iblk m c 2 t) (iblk m c 3 t)) (pay5_apply j0)

/-- After a point that adds, the accumulators hold that point's totals added to what they held after the point before. -/
theorem acc_add (c : Dev nD) (t s : Fin cfg0.N) (hst : t.val = s.val + 1) (h0 : ¬t.val % 4 = 0) (j0 : S1x1x1.Idx) :
    acc m c t.val t.isLt j0 = acc m c s.val s.isLt j0 + T m c t := by
  obtain ⟨n, hn⟩ := t
  obtain ⟨k, hk⟩ := s
  have hnk : n = k + 1 := hst
  subst hnk
  unfold acc
  rw [outsAt_B m c ⟨k + 1, hn⟩ h0]
  unfold outsB
  dsimp only
  refine Prod.ext ?_ (Prod.ext ?_ ?_)
  · refine (congrFun (outB4_eq (F := Ideal) c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (fun h => h0 ((hcond0 ⟨k + 1, hn⟩).mp h)) (iblk m c 0 ⟨k + 1, hn⟩) (iblk m c 1 ⟨k + 1, hn⟩) (iblk m c 2 ⟨k + 1, hn⟩) (iblk m c 3 ⟨k + 1, hn⟩)
      (outsAt m c k hk).1 (outsAt m c k hk).2.1 (outsAt m c k hk).2.2) j0).trans ?_
    exact pay8_apply (iblk m c 0 ⟨k + 1, hn⟩) (iblk m c 1 ⟨k + 1, hn⟩) (outsAt m c k hk).1 j0
  · refine (congrFun (outB5_eq (F := Ideal) c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (fun h => h0 ((hcond0 ⟨k + 1, hn⟩).mp h)) (iblk m c 0 ⟨k + 1, hn⟩) (iblk m c 1 ⟨k + 1, hn⟩) (iblk m c 2 ⟨k + 1, hn⟩) (iblk m c 3 ⟨k + 1, hn⟩)
      (outsAt m c k hk).1 (outsAt m c k hk).2.1 (outsAt m c k hk).2.2) j0).trans ?_
    exact pay1_apply (iblk m c 0 ⟨k + 1, hn⟩) (iblk m c 1 ⟨k + 1, hn⟩) (iblk m c 2 ⟨k + 1, hn⟩) (iblk m c 3 ⟨k + 1, hn⟩) (outsAt m c k hk).2.1 j0
  · refine (congrFun (outB6_eq (F := Ideal) c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (fun h => h0 ((hcond0 ⟨k + 1, hn⟩).mp h)) (iblk m c 0 ⟨k + 1, hn⟩) (iblk m c 1 ⟨k + 1, hn⟩) (iblk m c 2 ⟨k + 1, hn⟩) (iblk m c 3 ⟨k + 1, hn⟩)
      (outsAt m c k hk).1 (outsAt m c k hk).2.1 (outsAt m c k hk).2.2) j0).trans ?_
    exact pay2_apply (iblk m c 2 ⟨k + 1, hn⟩) (iblk m c 3 ⟨k + 1, hn⟩) (outsAt m c k hk).2.2 j0

/-! ## A row of the grid -/

/-- Point `j` of row `r`: the grid's points are numbered row by row, four to a row. -/
def pt (r : Fin 2) (j : Fin 4) : Fin cfg0.N := ⟨4 * r.val + j.val, by rw [show cfg0.N = 8 from N_0]; omega⟩

theorem pt_val (r : Fin 2) (j : Fin 4) : (pt r j).val = 4 * r.val + j.val := rfl

/-- After the last point of row `r` the accumulators hold the sum of the row's four triples of totals. -/
theorem acc_row (c : Dev nD) (r : Fin 2) (j0 : S1x1x1.Idx) :
    acc m c (pt r 3).val (pt r 3).isLt j0 = ∑ j : Fin 4, T m c (pt r j) := by
  refine Eq.trans ?_ (Cert.SupCon.fold_four (fun j => T m c (pt r j)))
  show _ = (((0 + T m c (pt r 0)) + T m c (pt r 1)) + T m c (pt r 2)) + T m c (pt r 3)
  have e0 := acc_reset m c (pt r 0) (by show (4 * r.val + 0) % 4 = 0; omega) j0
  have e1 := acc_add m c (pt r 1) (pt r 0) (by show 4 * r.val + 1 = 4 * r.val + 0 + 1; omega) (by show ¬(4 * r.val + 1) % 4 = 0; omega) j0
  have e2 := acc_add m c (pt r 2) (pt r 1) (by show 4 * r.val + 2 = 4 * r.val + 1 + 1; omega) (by show ¬(4 * r.val + 2) % 4 = 0; omega) j0
  have e3 := acc_add m c (pt r 3) (pt r 2) (by show 4 * r.val + 3 = 4 * r.val + 2 + 1; omega) (by show ¬(4 * r.val + 3) % 4 = 0; omega) j0
  rw [e3, e2, e1, e0]

/-- The first accumulator after the last point of row `r`: the sum of the row's four first totals. -/
theorem row1 (c : Dev nD) (r : Fin 2) (j0 : S1x1x1.Idx) :
    (outsAt m c (pt r 3).val (pt r 3).isLt).1 j0 = ∑ j : Fin 4, T1 m c (pt r j) := by
  have h := congrArg Prod.fst (acc_row m c r j0)
  rw [Prod.fst_sum] at h
  exact h

/-- The second accumulator after the last point of row `r`: the sum of the row's four second totals. -/
theorem row2 (c : Dev nD) (r : Fin 2) (j0 : S1x1x1.Idx) :
    (outsAt m c (pt r 3).val (pt r 3).isLt).2.1 j0 = ∑ j : Fin 4, T2 m c (pt r j) := by
  have h := congrArg (fun x => x.2.1) (acc_row m c r j0)
  rw [Prod.snd_sum, Prod.fst_sum] at h
  exact h

/-- The third accumulator after the last point of row `r`: the sum of the row's four third totals. -/
theorem row3 (c : Dev nD) (r : Fin 2) (j0 : S1x1x1.Idx) :
    (outsAt m c (pt r 3).val (pt r 3).isLt).2.2 j0 = ∑ j : Fin 4, T3 m c (pt r j) := by
  have h := congrArg (fun x => x.2.2) (acc_row m c r j0)
  rw [Prod.snd_sum, Prod.snd_sum] at h
  exact h

end Cert.KernelIdeal.KerValue

end
-- ==== Proof.KerArrays.lean ====
/-
  The three result arrays after the run, and the input blocks as entries of the input arrays.

  Each result array has two entries, one per row of the grid; an accumulator's one-entry block
  is written back to entry `i` after the last point of row `i`, when it holds the sum of that
  row's four totals. Point `t` lies in row `t / 4` at position `t % 4`: its first matrix tile
  is the rows `4096 * (t / 4) + p` of the matrix, its second the rows `2048 * (t % 4) + q`, and
  its label tiles are the labels of the same rows (an entry of a block sits at block index times
  block extent plus the coordinate inside the block).
-/
import proofs.«157627_j59528246722684_2_alg».proof.Proof.KerAccum
import Idealize.ShloMosaic.Lib.ValueLayout
import Idealize.ShloMosaic.Lib.Tactic

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)
open scoped BigOperators

open Cert.KernelIdeal.PayValue

/-! ## The printed index maps, decided once over the grid -/

/-- The input windows' block indices at point `t`: the matrix's row block `t / 4` and row block `t % 4`, the labels' likewise. -/
theorem in_idx : ∀ t : Fin cfg0.N,
    (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_3.index t (0 : Fin 2) = 0 ∧ win0_3.index t (1 : Fin 2) = t.val % 4) :=
  (by decide +kernel : ∀ t : Fin grid0.N, _)

/-- The output windows' block indices at point `t`: entry `t / 4` of each result array. -/
theorem out_idx : ∀ t : Fin cfg0.N,
    (win0_4.index t (0 : Fin 3) = t.val / 4 ∧ win0_4.index t (1 : Fin 3) = 0 ∧ win0_4.index t (2 : Fin 3) = 0)
    ∧ (win0_5.index t (0 : Fin 3) = t.val / 4 ∧ win0_5.index t (1 : Fin 3) = 0 ∧ win0_5.index t (2 : Fin 3) = 0)
    ∧ (win0_6.index t (0 : Fin 3) = t.val / 4 ∧ win0_6.index t (1 : Fin 3) = 0 ∧ win0_6.index t (2 : Fin 3) = 0) :=
  (by decide +kernel : ∀ t : Fin grid0.N, _)

/-! ## The input blocks as entries of the input arrays -/

section Blocks

variable {F : FTy → Type} [FloatOps F] [Named F]
variable (m : (ℓ : Loc nD τ sig) → Buf (Elt F) ℓ)

/-- Row `p` of the first tile of point `t` is a row of the matrix. -/
theorem row_lt (t : Fin cfg0.N) (p : Fin 4096) : 4096 * (t.val / 4) + p.val < 8192 := by
  have hN : t.val < 8 := lt_of_lt_of_eq t.isLt (show cfg0.N = 8 from N_0)
  omega
/-- Row `q` of the second tile of point `t` is a row of the matrix. -/
theorem col_lt (t : Fin cfg0.N) (q : Fin 2048) : 2048 * (t.val % 4) + q.val < 8192 := by omega

/-- The first matrix tile of point `t`, entry `(p, k)`: the matrix at row `4096 * (t / 4) + p`. -/
theorem iblk0_apply (c : Dev nD) (t : Fin cfg0.N) (p : Fin 4096) (k : Fin 768) :
    (iblk m c 0 t : Vec F S4096x768 .bf16) (ix2 p k)
      = (V m c main_v7 : Vec F S8192x768 .bf16) (ix2 ⟨4096 * (t.val / 4) + p.val, row_lt t p⟩ k) := by
  obtain ⟨e0, e1⟩ := (in_idx t).1
  unfold iblk
  rw [View.read_apply]
  show V m c main_v7 _ = V m c main_v7 _
  congr 1
  funext a
  apply Fin.ext
  match a with
  | ⟨0, _⟩ => show win0_0.index t (0 : Fin 2) * 4096 + 1 * p.val = 4096 * (t.val / 4) + p.val; rw [e0]; omega
  | ⟨1, _⟩ => show win0_0.index t (1 : Fin 2) * 768 + 1 * k.val = k.val; rw [e1]; omega

/-- The second matrix tile of point `t`, entry `(q, k)`: the matrix at row `2048 * (t % 4) + q`. -/
theorem iblk1_apply (c : Dev nD) (t : Fin cfg0.N) (q : Fin 2048) (k : Fin 768) :
    (iblk m c 1 t : Vec F S2048x768 .bf16) (ix2 q k)
      = (V m c main_v7 : Vec F S8192x768 .bf16) (ix2 ⟨2048 * (t.val % 4) + q.val, col_lt t q⟩ k) := by
  obtain ⟨e0, e1⟩ := (in_idx t).2.1
  unfold iblk
  rw [View.read_apply]
  show V m c main_v7 _ = V m c main_v7 _
  congr 1
  funext a
  apply Fin.ext
  match a with
  | ⟨0, _⟩ => show win0_1.index t (0 : Fin 2) * 2048 + 1 * q.val = 2048 * (t.val % 4) + q.val; rw [e0]; omega
  | ⟨1, _⟩ => show win0_1.index t (1 : Fin 2) * 768 + 1 * k.val = k.val; rw [e1]; omega

/-- The column label tile of point `t`, entry `(p, 0)`: the label of row `4096 * (t / 4) + p`. -/
theorem iblk2_apply (c : Dev nD) (t : Fin cfg0.N) (p : Fin 4096) :
    (iblk m c 2 t : Vec F S4096x1 .i32) (ix2 p (0 : Fin 1))
      = (V m c main_v8 : Vec F S8192x1 .i32) (ix2 ⟨4096 * (t.val / 4) + p.val, row_lt t p⟩ (0 : Fin 1)) := by
  obtain ⟨e0, e1⟩ := (in_idx t).2.2.1
  unfold iblk
  rw [View.read_apply]
  show V m c main_v8 _ = V m c main_v8 _
  congr 1
  funext a
  apply Fin.ext
  match a with
  | ⟨0, _⟩ => show win0_2.index t (0 : Fin 2) * 4096 + 1 * p.val = 4096 * (t.val / 4) + p.val; rw [e0]; omega
  | ⟨1, _⟩ => show win0_2.index t (1 : Fin 2) * 1 + 1 * 0 = 0; rw [e1]

/-- The row label tile of point `t`, entry `(0, q)`: the label of row `2048 * (t % 4) + q`. -/
theorem iblk3_apply (c : Dev nD) (t : Fin cfg0.N) (q : Fin 2048) :
    (iblk m c 3 t : Vec F S1x2048 .i32) (ix2 (0 : Fin 1) q)
      = (V m c main_v9 : Vec F S1x8192 .i32) (ix2 (0 : Fin 1) ⟨2048 * (t.val % 4) + q.val, col_lt t q⟩) := by
  obtain ⟨e0, e1⟩ := (in_idx t).2.2.2
  unfold iblk
  rw [View.read_apply]
  show V m c main_v9 _ = V m c main_v9 _
  congr 1
  funext a
  apply Fin.ext
  match a with
  | ⟨0, _⟩ => show win0_3.index t (0 : Fin 2) * 1 + 1 * 0 = 0; rw [e0]
  | ⟨1, _⟩ => show win0_3.index t (1 : Fin 2) * 2048 + 1 * q.val = 2048 * (t.val % 4) + q.val; rw [e1]; omega

end Blocks

/-! ## The result arrays -/

variable (m : (ℓ : Loc nD τ sig) → Buf (Elt Ideal) ℓ)

/-- The row of the grid an entry of a result array belongs to. -/
def rowOf (y : S2x1x1.Idx) : Fin 2 := ⟨(y 0).val, (y 0).isLt⟩

/-! ## Result array 1 -/

/-- What result array 1 ends holding: at entry `(i, 0, 0)` the sum of row `i`'s four totals. -/
def G1 (c : Dev nD) : S2x1x1.Idx → EReal := fun y => ∑ j : Fin 4, T1 m c (pt (rowOf y) j)

/-- What a write-back point writes is its block of that array: the point is the last of its row, and its
    block is the row's one entry. -/
theorem flushed4_eq (c : Dev nD) (t : Fin cfg0.N) (hf : (cfg0.win 4).flush t = true) :
    (dats m 0 c).flushed 4 t = ((cfg0.win 4).blk t).view.read (Elt Ideal) (G1 m c) := by
  have h3 : t.val % 4 = 3 := (flush0_4 t).mp hf
  have hN : t.val < 8 := lt_of_lt_of_eq t.isLt (show cfg0.N = 8 from N_0)
  obtain ⟨r, rfl⟩ : ∃ r : Fin 2, t = pt r 3 :=
    ⟨⟨t.val / 4, by omega⟩, Fin.ext (by show t.val = 4 * (t.val / 4) + 3; omega)⟩
  show (cfg0.win 4).cut (grid0.coords (pt r 3)) ((dats m 0 c).after 4 (pt r 3)) = _
  rw [after4]
  funext x
  show (outsAt m c (pt r 3).val (pt r 3).isLt).1 x = G1 m c (((cfg0.win 4).blk (pt r 3)).view.emb x)
  rw [row1 m c r x]
  unfold G1
  have hr : rowOf (((cfg0.win 4).blk (pt r 3)).view.emb x) = r := Fin.ext (by
    show win0_4.index (pt r 3) (0 : Fin 3) * 1 + 1 * (x 0).val = r.val
    have hx : (x 0).val < 1 := (x 0).isLt
    have hi := (out_idx (pt r 3)).1.1
    have hp : (pt r 3).val = 4 * r.val + 3 := rfl
    rw [hi, hp]; omega)
  rw [hr]

/-- An entry of the array is in a point's block iff each coordinate is in the block's range on its axis. -/
theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v10_0).slice (win0_4.rect t)).set ↔ _
  rw [View.set_slice_whole, Rect.mem_set_unit]
  exact Iff.rfl

/-- The two write-backs cover the array: entry `(i, 0, 0)` is the block of the last point of row `i`. -/
theorem final4 (c : Dev nD) : (dats m 0 c).arrAt 4 cfg0.N = G1 m c :=
  (dats m 0 c).arrAt_eq_of_cover 4 (G1 m c) (flushed4_eq m c) fun i =>
    ⟨pt (rowOf i) 3, (flush0_4 _).mpr (by show (4 * (rowOf i).val + 3) % 4 = 3; omega), by
      rw [mem_blk4]
      obtain ⟨e0, e1, e2⟩ := (out_idx (pt (rowOf i) 3)).1
      have hp : (pt (rowOf i) 3).val = 4 * (i 0).val + 3 := rfl
      have h0 : (i 0).val < 2 := (i 0).isLt
      have h1 : (i 1).val < 1 := (i 1).isLt
      have h2 : (i 2).val < 1 := (i 2).isLt
      intro a
      match a with
      | ⟨0, _⟩ => show win0_4.index (pt (rowOf i) 3) (0 : Fin 3) * 1 ≤ (i 0).val ∧ (i 0).val < win0_4.index (pt (rowOf i) 3) (0 : Fin 3) * 1 + 1
                  rw [e0, hp]; omega
      | ⟨1, _⟩ => show win0_4.index (pt (rowOf i) 3) (1 : Fin 3) * 1 ≤ (i 1).val ∧ (i 1).val < win0_4.index (pt (rowOf i) 3) (1 : Fin 3) * 1 + 1
                  rw [e1]; omega
      | ⟨2, _⟩ => show win0_4.index (pt (rowOf i) 3) (2 : Fin 3) * 1 ≤ (i 2).val ∧ (i 2).val < win0_4.index (pt (rowOf i) 3) (2 : Fin 3) * 1 + 1
                  rw [e2]; omega⟩

/-- Result array 1 at entry `(i, 0, 0)` after the run: the sum of row `i`'s four totals. -/
theorem arr4_apply (c : Dev nD) (i : Fin 2) :
    (dats m 0 c).arrAt 4 cfg0.N (ix3 i (0 : Fin 1) (0 : Fin 1)) = ∑ j : Fin 4, T1 m c (pt i j) := by
  rw [final4]
  rfl

/-! ## Result array 2 -/

/-- What result array 2 ends holding: at entry `(i, 0, 0)` the sum of row `i`'s four totals. -/
def G2 (c : Dev nD) : S2x1x1.Idx → EReal := fun y => ∑ j : Fin 4, T2 m c (pt (rowOf y) j)

/-- What a write-back point writes is its block of that array: the point is the last of its row, and its
    block is the row's one entry. -/
theorem flushed5_eq (c : Dev nD) (t : Fin cfg0.N) (hf : (cfg0.win 5).flush t = true) :
    (dats m 0 c).flushed 5 t = ((cfg0.win 5).blk t).view.read (Elt Ideal) (G2 m c) := by
  have h3 : t.val % 4 = 3 := (flush0_5 t).mp hf
  have hN : t.val < 8 := lt_of_lt_of_eq t.isLt (show cfg0.N = 8 from N_0)
  obtain ⟨r, rfl⟩ : ∃ r : Fin 2, t = pt r 3 :=
    ⟨⟨t.val / 4, by omega⟩, Fin.ext (by show t.val = 4 * (t.val / 4) + 3; omega)⟩
  show (cfg0.win 5).cut (grid0.coords (pt r 3)) ((dats m 0 c).after 5 (pt r 3)) = _
  rw [after5]
  funext x
  show (outsAt m c (pt r 3).val (pt r 3).isLt).2.1 x = G2 m c (((cfg0.win 5).blk (pt r 3)).view.emb x)
  rw [row2 m c r x]
  unfold G2
  have hr : rowOf (((cfg0.win 5).blk (pt r 3)).view.emb x) = r := Fin.ext (by
    show win0_5.index (pt r 3) (0 : Fin 3) * 1 + 1 * (x 0).val = r.val
    have hx : (x 0).val < 1 := (x 0).isLt
    have hi := (out_idx (pt r 3)).2.1.1
    have hp : (pt r 3).val = 4 * r.val + 3 := rfl
    rw [hi, hp]; omega)
  rw [hr]

/-- An entry of the array is in a point's block iff each coordinate is in the block's range on its axis. -/
theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v10_1).slice (win0_5.rect t)).set ↔ _
  rw [View.set_slice_whole, Rect.mem_set_unit]
  exact Iff.rfl

/-- The two write-backs cover the array: entry `(i, 0, 0)` is the block of the last point of row `i`. -/
theorem final5 (c : Dev nD) : (dats m 0 c).arrAt 5 cfg0.N = G2 m c :=
  (dats m 0 c).arrAt_eq_of_cover 5 (G2 m c) (flushed5_eq m c) fun i =>
    ⟨pt (rowOf i) 3, (flush0_5 _).mpr (by show (4 * (rowOf i).val + 3) % 4 = 3; omega), by
      rw [mem_blk5]
      obtain ⟨e0, e1, e2⟩ := (out_idx (pt (rowOf i) 3)).2.1
      have hp : (pt (rowOf i) 3).val = 4 * (i 0).val + 3 := rfl
      have h0 : (i 0).val < 2 := (i 0).isLt
      have h1 : (i 1).val < 1 := (i 1).isLt
      have h2 : (i 2).val < 1 := (i 2).isLt
      intro a
      match a with
      | ⟨0, _⟩ => show win0_5.index (pt (rowOf i) 3) (0 : Fin 3) * 1 ≤ (i 0).val ∧ (i 0).val < win0_5.index (pt (rowOf i) 3) (0 : Fin 3) * 1 + 1
                  rw [e0, hp]; omega
      | ⟨1, _⟩ => show win0_5.index (pt (rowOf i) 3) (1 : Fin 3) * 1 ≤ (i 1).val ∧ (i 1).val < win0_5.index (pt (rowOf i) 3) (1 : Fin 3) * 1 + 1
                  rw [e1]; omega
      | ⟨2, _⟩ => show win0_5.index (pt (rowOf i) 3) (2 : Fin 3) * 1 ≤ (i 2).val ∧ (i 2).val < win0_5.index (pt (rowOf i) 3) (2 : Fin 3) * 1 + 1
                  rw [e2]; omega⟩

/-- Result array 2 at entry `(i, 0, 0)` after the run: the sum of row `i`'s four totals. -/
theorem arr5_apply (c : Dev nD) (i : Fin 2) :
    (dats m 0 c).arrAt 5 cfg0.N (ix3 i (0 : Fin 1) (0 : Fin 1)) = ∑ j : Fin 4, T2 m c (pt i j) := by
  rw [final5]
  rfl

/-! ## Result array 3 -/

/-- What result array 3 ends holding: at entry `(i, 0, 0)` the sum of row `i`'s four totals. -/
def G3 (c : Dev nD) : S2x1x1.Idx → EReal := fun y => ∑ j : Fin 4, T3 m c (pt (rowOf y) j)

/-- What a write-back point writes is its block of that array: the point is the last of its row, and its
    block is the row's one entry. -/
theorem flushed6_eq (c : Dev nD) (t : Fin cfg0.N) (hf : (cfg0.win 6).flush t = true) :
    (dats m 0 c).flushed 6 t = ((cfg0.win 6).blk t).view.read (Elt Ideal) (G3 m c) := by
  have h3 : t.val % 4 = 3 := (flush0_6 t).mp hf
  have hN : t.val < 8 := lt_of_lt_of_eq t.isLt (show cfg0.N = 8 from N_0)
  obtain ⟨r, rfl⟩ : ∃ r : Fin 2, t = pt r 3 :=
    ⟨⟨t.val / 4, by omega⟩, Fin.ext (by show t.val = 4 * (t.val / 4) + 3; omega)⟩
  show (cfg0.win 6).cut (grid0.coords (pt r 3)) ((dats m 0 c).after 6 (pt r 3)) = _
  rw [after6]
  funext x
  show (outsAt m c (pt r 3).val (pt r 3).isLt).2.2 x = G3 m c (((cfg0.win 6).blk (pt r 3)).view.emb x)
  rw [row3 m c r x]
  unfold G3
  have hr : rowOf (((cfg0.win 6).blk (pt r 3)).view.emb x) = r := Fin.ext (by
    show win0_6.index (pt r 3) (0 : Fin 3) * 1 + 1 * (x 0).val = r.val
    have hx : (x 0).val < 1 := (x 0).isLt
    have hi := (out_idx (pt r 3)).2.2.1
    have hp : (pt r 3).val = 4 * r.val + 3 := rfl
    rw [hi, hp]; omega)
  rw [hr]

/-- An entry of the array is in a point's block iff each coordinate is in the block's range on its axis. -/
theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v10_2).slice (win0_6.rect t)).set ↔ _
  rw [View.set_slice_whole, Rect.mem_set_unit]
  exact Iff.rfl

/-- The two write-backs cover the array: entry `(i, 0, 0)` is the block of the last point of row `i`. -/
theorem final6 (c : Dev nD) : (dats m 0 c).arrAt 6 cfg0.N = G3 m c :=
  (dats m 0 c).arrAt_eq_of_cover 6 (G3 m c) (flushed6_eq m c) fun i =>
    ⟨pt (rowOf i) 3, (flush0_6 _).mpr (by show (4 * (rowOf i).val + 3) % 4 = 3; omega), by
      rw [mem_blk6]
      obtain ⟨e0, e1, e2⟩ := (out_idx (pt (rowOf i) 3)).2.2
      have hp : (pt (rowOf i) 3).val = 4 * (i 0).val + 3 := rfl
      have h0 : (i 0).val < 2 := (i 0).isLt
      have h1 : (i 1).val < 1 := (i 1).isLt
      have h2 : (i 2).val < 1 := (i 2).isLt
      intro a
      match a with
      | ⟨0, _⟩ => show win0_6.index (pt (rowOf i) 3) (0 : Fin 3) * 1 ≤ (i 0).val ∧ (i 0).val < win0_6.index (pt (rowOf i) 3) (0 : Fin 3) * 1 + 1
                  rw [e0, hp]; omega
      | ⟨1, _⟩ => show win0_6.index (pt (rowOf i) 3) (1 : Fin 3) * 1 ≤ (i 1).val ∧ (i 1).val < win0_6.index (pt (rowOf i) 3) (1 : Fin 3) * 1 + 1
                  rw [e1]; omega
      | ⟨2, _⟩ => show win0_6.index (pt (rowOf i) 3) (2 : Fin 3) * 1 ≤ (i 2).val ∧ (i 2).val < win0_6.index (pt (rowOf i) 3) (2 : Fin 3) * 1 + 1
                  rw [e2]; omega⟩

/-- Result array 3 at entry `(i, 0, 0)` after the run: the sum of row `i`'s four totals. -/
theorem arr6_apply (c : Dev nD) (i : Fin 2) :
    (dats m 0 c).arrAt 6 cfg0.N (ix3 i (0 : Fin 1) (0 : Fin 1)) = ∑ j : Fin 4, T3 m c (pt i j) := by
  rw [final6]
  rfl

end Cert.KernelIdeal.KerValue

end
-- ==== Proof.KerTotals.lean ====
/-
  The kernel's three results as sums over all pairs of rows.

  Each result array has one entry per row of the grid; its two entries added are the sum over
  the 2 × 4 grid points of that point's total. A point's total is a sum over the pairs
  `(p, q)` of its tiles, and tile entry `p` of point `(i, j)` is row `4096 * i + p` of the
  matrix (its label likewise), tile entry `q` is row `2048 * j + q`. The tiles cut the
  8192 × 8192 pairs of rows into 2 × 4 rectangles, each pair in exactly one, so the sum over the
  points of the sums over their tiles is the sum over all pairs.
-/
import proofs.«157627_j59528246722684_2_alg».proof.Proof.KerArrays
import Idealize.ShloMosaic.Lib.ValueLayout
import Idealize.ShloMosaic.Lib.Tactic

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)
open scoped BigOperators

open Cert.KernelIdeal.PayValue

/-! ## A tile's totals when its entries are rows of one matrix and one pair of label lists -/

/-- If the entries of the two matrix tiles are the rows `P0 p` and `Q0 q` of a matrix `X`, the tile's first
    total is the sum of the scaled inner products of those rows. -/
theorem tile1_rows (a : Vec Ideal S4096x768 .bf16) (b : Vec Ideal S2048x768 .bf16) (X : Fin 8192 → Fin 768 → EReal)
    (P0 : Fin 4096 → Fin 8192) (Q0 : Fin 2048 → Fin 8192)
    (ha : ∀ p k, a (ix2 p k) = X (P0 p) k) (hb : ∀ q k, b (ix2 q k) = X (Q0 q) k) :
    tile1 a b = ∑ p : Fin 4096, ∑ q : Fin 2048, Cert.SupCon.dot X (P0 p) (Q0 q) * Cert.SupCon.invT := by
  unfold tile1 Cert.SupCon.dot
  refine Finset.sum_congr rfl fun p _ => Finset.sum_congr rfl fun q _ => ?_
  refine congrArg (· * Cert.SupCon.invT) (Finset.sum_congr rfl fun k _ => ?_)
  rw [ha, hb]

/-- Likewise the second total, the label tiles' entries being the labels `Lc (P0 p)` and `Lr (Q0 q)`. -/
theorem tile2_rows (a : Vec Ideal S4096x768 .bf16) (b : Vec Ideal S2048x768 .bf16)
    (li : Vec Ideal S4096x1 .i32) (lj : Vec Ideal S1x2048 .i32) (X : Fin 8192 → Fin 768 → EReal)
    (Lc Lr : Fin 8192 → BitVec 32) (P0 : Fin 4096 → Fin 8192) (Q0 : Fin 2048 → Fin 8192)
    (ha : ∀ p k, a (ix2 p k) = X (P0 p) k) (hb : ∀ q k, b (ix2 q k) = X (Q0 q) k)
    (hli : ∀ p, li (ix2 p (0 : Fin 1)) = Lc (P0 p)) (hlj : ∀ q, lj (ix2 (0 : Fin 1) q) = Lr (Q0 q)) :
    tile2 a b li lj = ∑ p : Fin 4096, ∑ q : Fin 2048,
      (Cert.SupCon.dot X (P0 p) (Q0 q) * Cert.SupCon.invT) * (if Lc (P0 p) = Lr (Q0 q) then (1 : EReal) else 0) := by
  unfold tile2 Cert.SupCon.dot
  refine Finset.sum_congr rfl fun p _ => Finset.sum_congr rfl fun q _ => ?_
  rw [hli, hlj]
  refine congrArg (· * (if Lc (P0 p) = Lr (Q0 q) then (1 : EReal) else 0)) ?_
  refine congrArg (· * Cert.SupCon.invT) (Finset.sum_congr rfl fun k _ => ?_)
  rw [ha, hb]

/-- Likewise the third total. -/
theorem tile3_rows (li : Vec Ideal S4096x1 .i32) (lj : Vec Ideal S1x2048 .i32)
    (Lc Lr : Fin 8192 → BitVec 32) (P0 : Fin 4096 → Fin 8192) (Q0 : Fin 2048 → Fin 8192)
    (hli : ∀ p, li (ix2 p (0 : Fin 1)) = Lc (P0 p)) (hlj : ∀ q, lj (ix2 (0 : Fin 1) q) = Lr (Q0 q)) :
    tile3 li lj = ∑ p : Fin 4096, ∑ q : Fin 2048, (if Lc (P0 p) = Lr (Q0 q) then (1 : EReal) else 0) := by
  unfold tile3
  refine Finset.sum_congr rfl fun p _ => Finset.sum_congr rfl fun q _ => ?_
  rw [hli, hlj]

/-! ## The rows of a grid point's tiles -/

/-- Row `p` of the first tile of a point of grid row `i`. -/
def rowA (i : Fin 2) (p : Fin 4096) : Fin 8192 := ⟨4096 * i.val + p.val, by omega⟩
/-- Row `q` of the second tile of a point at position `j` of its grid row. -/
def rowB (j : Fin 4) (q : Fin 2048) : Fin 8192 := ⟨2048 * j.val + q.val, by omega⟩

/-- The tiles cut the pairs of rows into 2 × 4 rectangles, each pair in exactly one. -/
theorem sum_rows {M : Type*} [AddCommMonoid M] (f : Fin 8192 → Fin 8192 → M) :
    ∑ i : Fin 2, ∑ j : Fin 4, ∑ p : Fin 4096, ∑ q : Fin 2048, f (rowA i p) (rowB j q) = ∑ P : Fin 8192, ∑ Q : Fin 8192, f P Q :=
  Cert.SupCon.sum_tiles f

/-- Point `j` of row `i` is in row `i` … -/
theorem pt_div (i : Fin 2) (j : Fin 4) : (pt i j).val / 4 = i.val := by
  show (4 * i.val + j.val) / 4 = i.val
  omega
/-- … at position `j`. -/
theorem pt_mod (i : Fin 2) (j : Fin 4) : (pt i j).val % 4 = j.val := by
  show (4 * i.val + j.val) % 4 = j.val
  omega

/-- Row `p` of the first tile of point `(i, j)`, as a row of the matrix. -/
theorem rowP (i : Fin 2) (j : Fin 4) (p : Fin 4096) :
    (⟨4096 * ((pt i j).val / 4) + p.val, row_lt (pt i j) p⟩ : Fin 8192) = rowA i p :=
  Fin.ext (by show 4096 * ((pt i j).val / 4) + p.val = 4096 * i.val + p.val; rw [pt_div])
/-- Row `q` of the second tile of point `(i, j)`, as a row of the matrix. -/
theorem rowQ (i : Fin 2) (j : Fin 4) (q : Fin 2048) :
    (⟨2048 * ((pt i j).val % 4) + q.val, col_lt (pt i j) q⟩ : Fin 8192) = rowB j q :=
  Fin.ext (by show 2048 * ((pt i j).val % 4) + q.val = 2048 * j.val + q.val; rw [pt_mod])

/-! ## The arrays the region finds, by row -/

variable (m : (ℓ : Loc nD τ sig) → Buf (Elt Ideal) ℓ)

/-- The matrix the region finds, by row and column. -/
def XN (c : Dev nD) : Fin 8192 → Fin 768 → EReal :=
  fun P k => (V m c main_v7 : Vec Ideal S8192x768 .bf16) (ix2 P k)
/-- The labels the region finds in the column array. -/
def LABc (c : Dev nD) : Fin 8192 → BitVec 32 :=
  fun P => (V m c main_v8 : Vec Ideal S8192x1 .i32) (ix2 P (0 : Fin 1))
/-- The labels the region finds in the row array. -/
def LABr (c : Dev nD) : Fin 8192 → BitVec 32 :=
  fun Q => (V m c main_v9 : Vec Ideal S1x8192 .i32) (ix2 (0 : Fin 1) Q)

/-- The scaled similarity of rows `P` and `Q`. -/
def sim (c : Dev nD) (P Q : Fin 8192) : EReal := Cert.SupCon.dot (XN m c) P Q * Cert.SupCon.invT
/-- 1 when the column label of row `P` is the row label of row `Q`, else 0. -/
def msk (c : Dev nD) (P Q : Fin 8192) : EReal := if LABc m c P = LABr m c Q then 1 else 0

theorem blk0_row (c : Dev nD) (i : Fin 2) (j : Fin 4) (p : Fin 4096) (k : Fin 768) :
    (iblk m c 0 (pt i j) : Vec Ideal S4096x768 .bf16) (ix2 p k) = XN m c (rowA i p) k :=
  (iblk0_apply m c (pt i j) p k).trans (congrArg (fun P => XN m c P k) (rowP i j p))
theorem blk1_row (c : Dev nD) (i : Fin 2) (j : Fin 4) (q : Fin 2048) (k : Fin 768) :
    (iblk m c 1 (pt i j) : Vec Ideal S2048x768 .bf16) (ix2 q k) = XN m c (rowB j q) k :=
  (iblk1_apply m c (pt i j) q k).trans (congrArg (fun Q => XN m c Q k) (rowQ i j q))
theorem blk2_row (c : Dev nD) (i : Fin 2) (j : Fin 4) (p : Fin 4096) :
    (iblk m c 2 (pt i j) : Vec Ideal S4096x1 .i32) (ix2 p (0 : Fin 1)) = LABc m c (rowA i p) :=
  (iblk2_apply m c (pt i j) p).trans (congrArg (fun P => LABc m c P) (rowP i j p))
theorem blk3_row (c : Dev nD) (i : Fin 2) (j : Fin 4) (q : Fin 2048) :
    (iblk m c 3 (pt i j) : Vec Ideal S1x2048 .i32) (ix2 (0 : Fin 1) q) = LABr m c (rowB j q) :=
  (iblk3_apply m c (pt i j) q).trans (congrArg (fun Q => LABr m c Q) (rowQ i j q))

/-! ## The totals of a point, over rows of the arrays -/

/-- The first total of point `(i, j)`: the scaled similarities of its rows against its rows. -/
theorem T1_eq (c : Dev nD) (i : Fin 2) (j : Fin 4) :
    T1 m c (pt i j) = ∑ p : Fin 4096, ∑ q : Fin 2048, sim m c (rowA i p) (rowB j q) := by
  unfold T1
  exact tile1_rows (iblk m c 0 (pt i j)) (iblk m c 1 (pt i j)) (XN m c) (rowA i) (rowB j)
    (blk0_row m c i j) (blk1_row m c i j)

/-- The second total of point `(i, j)`: the scaled similarities of the pairs whose labels agree. -/
theorem T2_eq (c : Dev nD) (i : Fin 2) (j : Fin 4) :
    T2 m c (pt i j) = ∑ p : Fin 4096, ∑ q : Fin 2048, sim m c (rowA i p) (rowB j q) * msk m c (rowA i p) (rowB j q) := by
  unfold T2
  exact tile2_rows (iblk m c 0 (pt i j)) (iblk m c 1 (pt i j)) (iblk m c 2 (pt i j)) (iblk m c 3 (pt i j)) (XN m c)
    (LABc m c) (LABr m c) (rowA i) (rowB j) (blk0_row m c i j) (blk1_row m c i j) (blk2_row m c i j) (blk3_row m c i j)

/-- The third total of point `(i, j)`: the number of pairs whose labels agree. -/
theorem T3_eq (c : Dev nD) (i : Fin 2) (j : Fin 4) :
    T3 m c (pt i j) = ∑ p : Fin 4096, ∑ q : Fin 2048, msk m c (rowA i p) (rowB j q) := by
  unfold T3
  exact tile3_rows (iblk m c 2 (pt i j)) (iblk m c 3 (pt i j)) (LABc m c) (LABr m c) (rowA i) (rowB j)
    (blk2_row m c i j) (blk3_row m c i j)

/-! ## The results -/

/-- Entry `i` of the first result array after the run, as an extended real. -/
def out1 (c : Dev nD) (i : Fin 2) : EReal := (dats m 0 c).arrAt 4 cfg0.N (ix3 i (0 : Fin 1) (0 : Fin 1))
/-- Entry `i` of the second result array after the run. -/
def out2 (c : Dev nD) (i : Fin 2) : EReal := (dats m 0 c).arrAt 5 cfg0.N (ix3 i (0 : Fin 1) (0 : Fin 1))
/-- Entry `i` of the third result array after the run. -/
def out3 (c : Dev nD) (i : Fin 2) : EReal := (dats m 0 c).arrAt 6 cfg0.N (ix3 i (0 : Fin 1) (0 : Fin 1))

/-- The first result's two entries added: the sum over all pairs of rows of their scaled similarity. -/
theorem total1 (c : Dev nD) : out1 m c 0 + out1 m c 1 = ∑ P : Fin 8192, ∑ Q : Fin 8192, sim m c P Q := by
  unfold out1
  rw [arr4_apply m c 0, arr4_apply m c 1]
  refine Eq.trans ?_ (sum_rows (fun P Q => sim m c P Q))
  rw [Fin.sum_univ_two]
  exact congrArg₂ (· + ·) (Finset.sum_congr rfl fun j _ => T1_eq m c 0 j) (Finset.sum_congr rfl fun j _ => T1_eq m c 1 j)

/-- The second result's two entries added: the same sum over the pairs whose labels agree. -/
theorem total2 (c : Dev nD) : out2 m c 0 + out2 m c 1 = ∑ P : Fin 8192, ∑ Q : Fin 8192, sim m c P Q * msk m c P Q := by
  unfold out2
  rw [arr5_apply m c 0, arr5_apply m c 1]
  refine Eq.trans ?_ (sum_rows (fun P Q => sim m c P Q * msk m c P Q))
  rw [Fin.sum_univ_two]
  exact congrArg₂ (· + ·) (Finset.sum_congr rfl fun j _ => T2_eq m c 0 j) (Finset.sum_congr rfl fun j _ => T2_eq m c 1 j)

/-- The third result's two entries added: the number of pairs of rows whose labels agree. -/
theorem total3 (c : Dev nD) : out3 m c 0 + out3 m c 1 = ∑ P : Fin 8192, ∑ Q : Fin 8192, msk m c P Q := by
  unfold out3
  rw [arr6_apply m c 0, arr6_apply m c 1]
  refine Eq.trans ?_ (sum_rows (fun P Q => msk m c P Q))
  rw [Fin.sum_univ_two]
  exact congrArg₂ (· + ·) (Finset.sum_congr rfl fun j _ => T3_eq m c 0 j) (Finset.sum_congr rfl fun j _ => T3_eq m c 1 j)

/-- The first result against the specification: the total of all scaled similarities of the matrix. -/
theorem total1_spec (c : Dev nD) : out1 m c 0 + out1 m c 1 = Cert.SupCon.sSim (XN m c) :=
  total1 m c

end Cert.KernelIdeal.KerValue

end
-- ==== Proof.KerFinal.lean ====
/-
  The kernel program's result as the loss of the three totals.

  After the region, each of the three result arrays holds one partial total per block of rows;
  the host sums each array's two entries and applies the shared formula. The two entries of the
  first array add up to the sum over all pairs of rows of their scaled similarity, those of the
  second to the same sum over the pairs with equal labels, those of the third to the number of
  such pairs — over the matrix and the labels the region finds, which are the reference's
  normalized matrix and labels of the same arguments. So the result is the shared formula of
  the three totals of that matrix and those labels.
-/
import proofs.«157627_j59528246722684_2_alg».proof.Proof.FrameLaunch
import proofs.«157627_j59528246722684_2_alg».proof.Proof.KerTail
import proofs.«157627_j59528246722684_2_alg».proof.Proof.KerPrefix
import proofs.«157627_j59528246722684_2_alg».proof.Proof.KerTotals

set_option maxRecDepth 16384

noncomputable section

namespace Cert.KernelIdeal.KerFinal

open Cert.KernelIdeal Cert.KernelIdeal.Gen Cert.KernelIdeal.Hand
open Idealize.ShloMosaic Idealize.ShloMosaic.TcCoe Idealize.SL.Sem
open Idealize.ShloMosaic.StableHlo Idealize.ShloMosaic.ValueIdx
open Cert.ReferenceIdeal.RefValue (xnOf labOf)

variable (m : (ℓ : Loc nD τ sig) → Buf (Elt Ideal) ℓ) (c : Dev nD)

/-! ## The matrix and the labels the region finds are the reference's -/

theorem XN_eq : Cert.KernelIdeal.KerValue.XN m c = xnOf (m ((c.tc : Thread nD τ).loc main_arg0)) :=
  Cert.KernelIdeal.PrefixValue.kerXn_fun m c

theorem LABc_eq : Cert.KernelIdeal.KerValue.LABc m c = labOf (m ((c.tc : Thread nD τ).loc main_arg1)) :=
  Cert.KernelIdeal.PrefixValue.kerLabCol_fun m c

theorem LABr_eq : Cert.KernelIdeal.KerValue.LABr m c = labOf (m ((c.tc : Thread nD τ).loc main_arg1)) :=
  Cert.KernelIdeal.PrefixValue.kerLabRow_fun m c

/-! ## The three totals -/

/-- The first result's two entries add up to the sum of all scaled similarities of the reference's matrix. -/
theorem total_sim :
    Cert.KernelIdeal.KerValue.out1 m c 0 + Cert.KernelIdeal.KerValue.out1 m c 1
      = Cert.SupCon.sSim (xnOf (m ((c.tc : Thread nD τ).loc main_arg0))) := by
  rw [Cert.KernelIdeal.KerValue.total1]
  show Cert.SupCon.sSim (Cert.KernelIdeal.KerValue.XN m c) = _
  rw [XN_eq]

/-- The second result's two entries add up to the same sum over the pairs with equal labels. -/
theorem total_masked :
    Cert.KernelIdeal.KerValue.out2 m c 0 + Cert.KernelIdeal.KerValue.out2 m c 1
      = Cert.SupCon.sMasked (xnOf (m ((c.tc : Thread nD τ).loc main_arg0))) (labOf (m ((c.tc : Thread nD τ).loc main_arg1))) := by
  rw [Cert.KernelIdeal.KerValue.total2]
  unfold Cert.KernelIdeal.KerValue.sim Cert.KernelIdeal.KerValue.msk
  rw [XN_eq m c, LABc_eq m c, LABr_eq m c]
  rfl

/-- The third result's two entries add up to the number of pairs with equal labels. -/
theorem total_pos :
    Cert.KernelIdeal.KerValue.out3 m c 0 + Cert.KernelIdeal.KerValue.out3 m c 1
      = Cert.SupCon.sPos (labOf (m ((c.tc : Thread nD τ).loc main_arg1))) := by
  rw [Cert.KernelIdeal.KerValue.total3]
  unfold Cert.KernelIdeal.KerValue.msk
  rw [LABc_eq m c, LABr_eq m c]
  rfl

/-! ## The result -/

/-- What the kernel program's result buffer holds at the end: the shared loss formula of the three totals of the
    reference's normalized matrix and labels of the same two arguments. -/
theorem ker_value :
    V₃ (F := Ideal) m c main_v29
      = fun _ => Cert.SupCon.lossOf
          (Cert.SupCon.sSim (xnOf (m ((c.tc : Thread nD τ).loc main_arg0))))
          (Cert.SupCon.sMasked (xnOf (m ((c.tc : Thread nD τ).loc main_arg0))) (labOf (m ((c.tc : Thread nD τ).loc main_arg1))))
          (Cert.SupCon.sPos (labOf (m ((c.tc : Thread nD τ).loc main_arg1)))) := by
  have e0 : V₂ (F := Ideal) m c main_v10_0 = o0 m c := by
    simp only [V₂, Function.update_of_ne (StableHlo.devRef_ne_of_ne (by decide : main_v10_0 ≠ main_v10_2) : (Proc.devRef .tc main_v10_0 : DevRef τ sig) ≠ Proc.devRef .tc main_v10_2),
      Function.update_of_ne (StableHlo.devRef_ne_of_ne (by decide : main_v10_0 ≠ main_v10_1) : (Proc.devRef .tc main_v10_0 : DevRef τ sig) ≠ Proc.devRef .tc main_v10_1), Function.update_self]
  have e1 : V₂ (F := Ideal) m c main_v10_1 = o1 m c := by
    simp only [V₂, Function.update_of_ne (StableHlo.devRef_ne_of_ne (by decide : main_v10_1 ≠ main_v10_2) : (Proc.devRef .tc main_v10_1 : DevRef τ sig) ≠ Proc.devRef .tc main_v10_2), Function.update_self]
  have e2 : V₂ (F := Ideal) m c main_v10_2 = o2 m c := by
    simp only [V₂, Function.update_self]
  refine (Cert.KernelIdeal.TailValue.after_tail (V₂ (F := Ideal) m c)).trans ?_
  rw [e0, e1, e2, Cert.KernelIdeal.TailValue.kerTail_eq]
  funext _
  exact congr (congr (congrArg Cert.SupCon.lossOf (total_sim m c)) (total_masked m c)) (total_pos m c)

end Cert.KernelIdeal.KerFinal

end
-- ==== Proof.Claims.lean ====
/-
  The five claims.

  The two kernel programs (as printed, and idealized) and the reference each run to the end with
  their two arguments unchanged; the idealized kernel differs from the printed one by one named
  constant, the temperature's reciprocal, which denotes the rational 134217728 / 9395241; and at the
  ideal values the idealized kernel and the reference, from memories that agree on the two
  arguments, end with the same result: the shared loss formula of the three totals (all scaled
  similarities, those of the pairs with equal labels, the number of such pairs) of the normalized
  matrix and the labels.
-/
import proofs.«157627_j59528246722684_2_alg».proof.Defs
import proofs.«157627_j59528246722684_2_alg».proof.Proof.FrameLaunch
import proofs.«157627_j59528246722684_2_alg».proof.Proof.KFrameLaunch
import proofs.«157627_j59528246722684_2_alg».proof.Proof.KerFinal
import proofs.«157627_j59528246722684_2_alg».proof.Proof.RefValue
import proofs.«157627_j59528246722684_2_alg».proof.Proof.Gen.ReferenceIdeal.Run
import proofs.«157627_j59528246722684_2_alg».proof.Proof.Gen.Pre_finite_inputs

noncomputable section

namespace Cert.Proof.Claims

open Idealize.ShloMosaic Idealize.ShloMosaic.TcCoe Idealize.SL.Sem

/-- The program as printed runs to the end, its two arguments unchanged. -/
theorem frame_k : Cert.frame_Kernel := fun m ρ _ => Cert.Kernel.Hand.frame (F := Bits) m ρ

/-- The idealized kernel program runs to the end, its two arguments unchanged. -/
theorem frame_ki : Cert.frame_KernelIdeal := fun m ρ _ => Cert.KernelIdeal.Hand.frame (F := Ideal) m ρ

/-- The reference runs to the end, its two arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the temperature's reciprocal denotes the rational 134217728 / 9395241. -/
theorem preserves : Cert.preserves_Kernel_KernelIdeal :=
  IdealRules.named_const.statement Cert.KernelIdeal.κ "inv_temperature" .f32 0x41649249#32 ((134217728 / 9395241 : ℝ) : EReal) rfl

/-- At the ideal values the idealized kernel and the reference end with the same result, the shared loss formula
    of the three totals of the normalized matrix and the labels of the arguments they agree on. -/
theorem algebraic : Cert.algebraic_KernelIdeal_ReferenceIdeal := by
  intro m ρ m' ρ' _ hagree
  refine ⟨fun c => fun _ => Cert.SupCon.lossOf
      (Cert.SupCon.sSim (Cert.ReferenceIdeal.RefValue.xnOf
        (m ((c.tc : Thread Cert.KernelIdeal.nD Cert.KernelIdeal.τ).loc Cert.KernelIdeal.main_arg0))))
      (Cert.SupCon.sMasked (Cert.ReferenceIdeal.RefValue.xnOf
          (m ((c.tc : Thread Cert.KernelIdeal.nD Cert.KernelIdeal.τ).loc Cert.KernelIdeal.main_arg0)))
        (Cert.ReferenceIdeal.RefValue.labOf
          (m ((c.tc : Thread Cert.KernelIdeal.nD Cert.KernelIdeal.τ).loc Cert.KernelIdeal.main_arg1))))
      (Cert.SupCon.sPos (Cert.ReferenceIdeal.RefValue.labOf
        (m ((c.tc : Thread Cert.KernelIdeal.nD Cert.KernelIdeal.τ).loc Cert.KernelIdeal.main_arg1)))),
    (θ_run Cert.KernelIdeal.defs _ _).mono
      (fun _ h c => ⟨(h c).1.trans (Cert.KernelIdeal.KerFinal.ker_value m c), (h c).2⟩)
      (Cert.KernelIdeal.Hand.run_main (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_value m' c, (hagree c).1, (hagree c).2]
  rfl

end Cert.Proof.Claims

end
-- ==== Proof.lean ====
/-
  The certificate's five claims, assembled.

  The programs. Both take 8192 rows of 768 numbers (as a [16, 512, 768] array) with one integer label per
  row, divide every row by its Euclidean norm clamped below at 1e-12, and from the normalized rows xn compute
  three totals over all ordered pairs of rows (P, Q): the sum of the similarities (xn_P · xn_Q) / T, the sum of
  the similarities of the pairs whose labels agree, and the number of such pairs; the result is
  log(1 + exp(neg − pos)) with pos the mean similarity over agreeing pairs and neg the mean over the others.
  The reference forms the full 8192 × 8192 matrix of similarities and divides it by the temperature T, the f32
  word nearest 0.07, whose exact value is 9395241 / 2^27. The kernel works tile by tile on a grid of 2 × 4
  points: at point (i, j) it multiplies rows 4096·i … 4096·i + 4095 against rows 2048·j … 2048·j + 2047,
  scales the products by a constant NAMED as the exact reciprocal 2^27 / 9395241 of that temperature, and adds
  the tile's three totals into three accumulators, one triple per i, reset at j = 0 and written back after
  j = 3; the host then adds the two triples and applies the same last formula.

  Why they agree over the extended reals. Dividing by the real T is multiplying by 1 / T, on every extended
  real. Addition of extended reals is commutative and associative, so the sixteen-fold sum over i, j and the
  positions inside a tile is the double sum over all pairs: no finiteness is needed for that, and the
  precondition is not used. The number of pairs 8192 · 8192 and the reference's literal 67108864 are the same
  real. The last formula is then the same function of the same three totals.

  The frames. Each program runs to the end without a fault and leaves both argument arrays as it found them:
  for the two kernel programs by running the body once per kind of grid point (a point that resets the
  accumulators, a point that adds to them) and composing the host stretches with the region, the normalized
  matrix — which two of the region's windows read — shared between them by halves; for the reference by its
  run read back operation by operation. The idealization replaced one constant by its name, whose value at the
  ideal instance is the stated rational.
-/
import proofs.«157627_j59528246722684_2_alg».proof.Defs
import proofs.«157627_j59528246722684_2_alg».proof.Proof.Claims
import proofs.«157627_j59528246722684_2_alg».proof.Proof.Gen.Kernel
import proofs.«157627_j59528246722684_2_alg».proof.Proof.Gen.KernelIdeal
import proofs.«157627_j59528246722684_2_alg».proof.Proof.Gen.ReferenceIdeal
import proofs.«157627_j59528246722684_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
